-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S512x128 : S_.BroadcastsInDim S512x128 (![] : Fin 0 → Fin S512x128.rank)
  reducesTo_S512x128_S_d0_1 : S512x128.ReducesTo [0, 1] S_
  bcast_S_S1024x128 : S_.BroadcastsInDim S1024x128 (![] : Fin 0 → Fin S1024x128.rank)
  reducesTo_S1024x128_S_d0_1 : S1024x128.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1x512 .f32) (main_arg10 : FVec F S1x1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1024x128 .f32) (main_arg5 : FVec F S4096x128 .f32) (main_arg6 : FVec F S4096x128 .f32) (main_arg7 : FVec F S4096 .f32) (main_arg8 : FVec F S4096 .f32) (main_arg9 : FVec F S1x512 .f32) (main_arg10 : FVec F S1x1024 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096x128 .f32 := Host.absf main_arg6
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x512 .f32) (main_arg1 : FVec F S4096x1024 .f32) (main_arg2 : FVec F S4096x1024 .f32) (main_arg3 : FVec F S512x128 .f32) (main_arg4 : FVec F S1024x128 .f32) (main_arg5 : FVec F S4096x128 .f32) (main_arg6 : FVec F S4096x128 .f32) (main_arg7 : FVec F S4096 .f32) (main_arg8 : FVec F S4096 .f32) (main_arg9 : FVec F S1x512 .f32) (main_arg10 : FVec F S1x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_v13 main_v16
-- ==== Kernel.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S4x1024x128 : Shape := ⟨3, ![4, 1024, 128]⟩
abbrev S1x512x128 : Shape := ⟨3, ![1, 512, 128]⟩
abbrev S4x512x128 : Shape := ⟨3, ![4, 512, 128]⟩
abbrev S_ : Shape := ⟨0, ![]⟩
abbrev S4x512 : Shape := ⟨2, ![4, 512]⟩
abbrev S1x1024x128 : Shape := ⟨3, ![1, 1024, 128]⟩
abbrev S4x1024 : Shape := ⟨2, ![4, 1024]⟩
abbrev S1x4096 : Shape := ⟨2, ![1, 4096]⟩
abbrev S128x4096 : Shape := ⟨2, ![128, 4096]⟩
abbrev S256x4096 : Shape := ⟨2, ![256, 4096]⟩
abbrev S256x512 : Shape := ⟨2, ![256, 512]⟩
abbrev S256x1024 : Shape := ⟨2, ![256, 1024]⟩
abbrev S256x128 : Shape := ⟨2, ![256, 128]⟩
abbrev S256x256 : Shape := ⟨2, ![256, 256]⟩

abbrev nBuf : Space → Nat
  | .hbm => 38
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S512x128, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S4x1024x128, .f32⟩
  | .hbm, ⟨12, _⟩ => ⟨S1x512x128, .f32⟩
  | .hbm, ⟨13, _⟩ => ⟨S4x512x128, .f32⟩
  | .hbm, ⟨14, _⟩ => ⟨S4x512x128, .f32⟩
  | .hbm, ⟨15, _⟩ => ⟨S4x512x128, .f32⟩
  | .hbm, ⟨16, _⟩ => ⟨S_, .f32⟩
  | .hbm, ⟨17, _⟩ => ⟨S4x512, .f32⟩
  | .hbm, ⟨18, _⟩ => ⟨S4x512, .f32⟩
  | .hbm, ⟨19, _⟩ => ⟨S4x512, .f32⟩
  | .hbm, ⟨20, _⟩ => ⟨S4x1024x128, .f32⟩
  | .hbm, ⟨21, _⟩ => ⟨S1x1024x128, .f32⟩
  | .hbm, ⟨22, _⟩ => ⟨S4x1024x128, .f32⟩
  | .hbm, ⟨23, _⟩ => ⟨S4x1024x128, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4096, .f32⟩
  | .hbm, ⟨29, _⟩ => ⟨S1x4096, .f32⟩
  | .hbm, ⟨30, _⟩ => ⟨S512x128, .bf16⟩
  | .hbm, ⟨31, _⟩ => ⟨S1024x128, .bf16⟩
  | .hbm, ⟨32, _⟩ => ⟨S128x4096, .f32⟩
  | .hbm, ⟨33, _⟩ => ⟨S128x4096, .f32⟩
  | .hbm, ⟨34, _⟩ => ⟨S256x4096, .f32⟩
  | .hbm, ⟨35, _⟩ => ⟨S256x4096, .bf16⟩
  | .hbm, ⟨36, _⟩ => ⟨S4096x1024, .f32⟩
  | .hbm, ⟨37, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x128, .bf16⟩
  | .local _ .vmem, ⟨7, _⟩ => ⟨S1024x128, .bf16⟩
  | .local _ .vmem, ⟨8, _⟩ => ⟨S256x4096, .bf16⟩
  | .local _ .vmem, ⟨9, _⟩ => ⟨S1x4096, .f32⟩
  | .local _ .vmem, ⟨10, _⟩ => ⟨S4x512, .f32⟩
  | .local _ .vmem, ⟨11, _⟩ => ⟨S4x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S4096x128_S4x1024x128 : S4096x128.ShapeCasts S4x1024x128
  bcast_S512x128_S1x512x128_1_2 : S512x128.BroadcastsInDim S1x512x128 (![1, 2] : Fin 2 → Fin S1x512x128.rank)
  slices_S4x1024x128_S4x512x128_0_0_0 : S4x1024x128.Slices ![0, 0, 0] S4x512x128
  bcast_S1x512x128_S4x512x128_0_1_2 : S1x512x128.BroadcastsInDim S4x512x128 (![0, 1, 2] : Fin 3 → Fin S4x512x128.rank)
  reducesTo_S4x512x128_S4x512_d2 : S4x512x128.ReducesTo [2] S4x512
  h_S_ : 0 < S_.numel
  bcast_S1x512_S4x512_0_1 : S1x512.BroadcastsInDim S4x512 (![0, 1] : Fin 2 → Fin S4x512.rank)
  bcast_S1024x128_S1x1024x128_1_2 : S1024x128.BroadcastsInDim S1x1024x128 (![1, 2] : Fin 2 → Fin S1x1024x128.rank)
  bcast_S1x1024x128_S4x1024x128_0_1_2 : S1x1024x128.BroadcastsInDim S4x1024x128 (![0, 1, 2] : Fin 3 → Fin S4x1024x128.rank)
  reducesTo_S4x1024x128_S4x1024_d2 : S4x1024x128.ReducesTo [2] S4x1024
  bcast_S1x1024_S4x1024_0_1 : S1x1024.BroadcastsInDim S4x1024 (![0, 1] : Fin 2 → Fin S4x1024.rank)
  shapeCasts_S4096_S1x4096 : S4096.ShapeCasts S1x4096
  bitsLt_bf16_f32 : FTy.bits .bf16 < FTy.bits .f32
  transposes_S4096x128_S128x4096_1_0 : S4096x128.Transposes [1, 0] S128x4096
  concatenates_S128x4096_S128x4096_S256x4096_d0 : Shape.Concatenates [S128x4096, S128x4096] S256x4096 0
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  concatenates_S256x128_S256x128_S256x256_d1 : Shape.Concatenates [S256x128, S256x128] S256x256 1
  slices_S4x512_o0_0_S1x512 : S4x512.Slices ![0, 0] S1x512
  slices_S4x1024_o0_0_S1x1024 : S4x1024.Slices ![0, 0] S1x1024
  slices_S1x4096_o0_0_S1x1024 : S1x4096.Slices ![0, 0] S1x1024
  slices_S256x4096_o0_0_S256x1024 : S256x4096.Slices ![0, 0] S256x1024
  broadcasts_S1x1024_S256x1024 : S1x1024.Broadcasts S256x1024
  broadcasts_S1x512_S256x512 : S1x512.Broadcasts S256x512
  slices_S256x1024_o0_0_S256x512 : S256x1024.Slices ![0, 0] S256x512
  slices_S256x1024_o0_512_S256x512 : S256x1024.Slices ![0, 512] S256x512
  concatenates_S256x512_S256x512_S256x1024_d1 : Shape.Concatenates [S256x512, S256x512] S256x1024 1
  slices_S4x512_o1_0_S1x512 : S4x512.Slices ![1, 0] S1x512
  slices_S4x1024_o1_0_S1x1024 : S4x1024.Slices ![1, 0] S1x1024
  slices_S1x4096_o0_1024_S1x1024 : S1x4096.Slices ![0, 1024] S1x1024
  slices_S256x4096_o0_1024_S256x1024 : S256x4096.Slices ![0, 1024] S256x1024
  slices_S4x512_o2_0_S1x512 : S4x512.Slices ![2, 0] S1x512
  slices_S4x1024_o2_0_S1x1024 : S4x1024.Slices ![2, 0] S1x1024
  slices_S1x4096_o0_2048_S1x1024 : S1x4096.Slices ![0, 2048] S1x1024
  slices_S256x4096_o0_2048_S256x1024 : S256x4096.Slices ![0, 2048] S256x1024
  slices_S4x512_o3_0_S1x512 : S4x512.Slices ![3, 0] S1x512
  slices_S4x1024_o3_0_S1x1024 : S4x1024.Slices ![3, 0] S1x1024
  slices_S1x4096_o0_3072_S1x1024 : S1x4096.Slices ![0, 3072] S1x1024
  slices_S256x4096_o0_3072_S256x1024 : S256x4096.Slices ![0, 3072] S256x1024
  dot_S256x512_S512x128_S256x128_1_0_0_1_n_n_wf : DotDims.WF S256x512 S512x128 S256x128 [1] [0] [0] [1] [] []
  dot_S256x1024_S1024x128_S256x128_1_0_0_1_n_n_wf : DotDims.WF S256x1024 S1024x128 S256x128 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S256x4096.size a
  hwx0_5 : ∀ i : grid0.Coords, EltTy.bits .bf16 = 32 ∨ (Rect.block (s := S256x4096) S256x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x512.size a ≤ S4x512.size a
  hwx0_7 : ∀ i : grid0.Coords, EltTy.bits .f32 = 32 ∨ (Rect.block (s := S4x512) S4x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)

variable [Facts₀]

def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S4x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S128x4096 : Shape := ⟨2, ![128, 4096]⟩
abbrev S4096x4096 : Shape := ⟨2, ![4096, 4096]⟩
abbrev S4x1024x128 : Shape := ⟨3, ![4, 1024, 128]⟩
abbrev S1x512x128 : Shape := ⟨3, ![1, 512, 128]⟩
abbrev S4x512x128 : Shape := ⟨3, ![4, 512, 128]⟩
abbrev S_ : Shape := ⟨0, ![]⟩
abbrev S4x512 : Shape := ⟨2, ![4, 512]⟩
abbrev S4096x1x512 : Shape := ⟨3, ![4096, 1, 512]⟩
abbrev S1x4x512 : Shape := ⟨3, ![1, 4, 512]⟩
abbrev S4096x4x512 : Shape := ⟨3, ![4096, 4, 512]⟩
abbrev S4096x4x1024 : Shape := ⟨3, ![4096, 4, 1024]⟩
abbrev S1x1024x128 : Shape := ⟨3, ![1, 1024, 128]⟩
abbrev S4x1024 : Shape := ⟨2, ![4, 1024]⟩
abbrev S4096x1x1024 : Shape := ⟨3, ![4096, 1, 1024]⟩
abbrev S1x4x1024 : Shape := ⟨3, ![1, 4, 1024]⟩
abbrev S1x4096 : Shape := ⟨2, ![1, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S512x128, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S4096x128, .f32⟩
  | .hbm, ⟨15, _⟩ => ⟨S128x4096, .f32⟩
  | .hbm, ⟨16, _⟩ => ⟨S4096x4096, .f32⟩
  | .hbm, ⟨17, _⟩ => ⟨S4x1024x128, .f32⟩
  | .hbm, ⟨18, _⟩ => ⟨S1x512x128, .f32⟩
  | .hbm, ⟨19, _⟩ => ⟨S4x512x128, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512, .f32⟩
  | .hbm, ⟨24, _⟩ => ⟨S4096x1x512, .f32⟩
  | .hbm, ⟨25, _⟩ => ⟨S1x4x512, .f32⟩
  | .hbm, ⟨26, _⟩ => ⟨S4096x4x512, .f32⟩
  | .hbm, ⟨27, _⟩ => ⟨S4096x4x512, .f32⟩
  | .hbm, ⟨28, _⟩ => ⟨S4096x4x512, .f32⟩
  | .hbm, ⟨29, _⟩ => ⟨S_, .i32⟩
  | .hbm, ⟨30, _⟩ => ⟨S_, .f32⟩
  | .hbm, ⟨31, _⟩ => ⟨S4096x4x1024, .f32⟩
  | .hbm, ⟨32, _⟩ => ⟨S4096x4096, .f32⟩
  | .hbm, ⟨33, _⟩ => ⟨S4x1024x128, .f32⟩
  | .hbm, ⟨34, _⟩ => ⟨S1x1024x128, .f32⟩
  | .hbm, ⟨35, _⟩ => ⟨S4x1024x128, .f32⟩
  | .hbm, ⟨36, _⟩ => ⟨S4x1024x128, .f32⟩
  | .hbm, ⟨37, _⟩ => ⟨S_, .f32⟩
  | .hbm, ⟨38, _⟩ => ⟨S4x1024, .f32⟩
  | .hbm, ⟨39, _⟩ => ⟨S4096x1x1024, .f32⟩
  | .hbm, ⟨40, _⟩ => ⟨S1x4x1024, .f32⟩
  | .hbm, ⟨41, _⟩ => ⟨S4096x4x1024, .f32⟩
  | .hbm, ⟨42, _⟩ => ⟨S4096x4x1024, .f32⟩
  | .hbm, ⟨43, _⟩ => ⟨S4096x4x1024, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x512, .f32⟩
  | .hbm, ⟨54, _⟩ => ⟨S4096x512, .f32⟩
  | .hbm, ⟨55, _⟩ => ⟨S_, .i32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]

class Facts₀ : Prop where
  transposes_S4096x128_S128x4096_1_0 : S4096x128.Transposes [1, 0] S128x4096
  shapeCasts_S4096x128_S4x1024x128 : S4096x128.ShapeCasts S4x1024x128
  bcast_S512x128_S1x512x128_1_2 : S512x128.BroadcastsInDim S1x512x128 (![1, 2] : Fin 2 → Fin S1x512x128.rank)
  slices_S4x1024x128_S4x512x128_0_0_0 : S4x1024x128.Slices ![0, 0, 0] S4x512x128
  bcast_S1x512x128_S4x512x128_0_1_2 : S1x512x128.BroadcastsInDim S4x512x128 (![0, 1, 2] : Fin 3 → Fin S4x512x128.rank)
  reducesTo_S4x512x128_S4x512_d2 : S4x512x128.ReducesTo [2] S4x512
  h_S_ : 0 < S_.numel
  bcast_S4096x512_S4096x1x512_0_2 : S4096x512.BroadcastsInDim S4096x1x512 (![0, 2] : Fin 2 → Fin S4096x1x512.rank)
  bcast_S4x512_S1x4x512_1_2 : S4x512.BroadcastsInDim S1x4x512 (![1, 2] : Fin 2 → Fin S1x4x512.rank)
  bcast_S4096x1x512_S4096x4x512_0_1_2 : S4096x1x512.BroadcastsInDim S4096x4x512 (![0, 1, 2] : Fin 3 → Fin S4096x4x512.rank)
  bcast_S1x4x512_S4096x4x512_0_1_2 : S1x4x512.BroadcastsInDim S4096x4x512 (![0, 1, 2] : Fin 3 → Fin S4096x4x512.rank)
  pads_S4096x4x512_S4096x4x1024_000_000_05120 : S4096x4x512.Pads (![0, 0, 0] : Fin 3 → Nat) ![0, 0, 512] ![0, 0, 0] S4096x4x1024
  shapeCasts_S4096x4x1024_S4096x4096 : S4096x4x1024.ShapeCasts S4096x4096
  bcast_S1024x128_S1x1024x128_1_2 : S1024x128.BroadcastsInDim S1x1024x128 (![1, 2] : Fin 2 → Fin S1x1024x128.rank)
  bcast_S1x1024x128_S4x1024x128_0_1_2 : S1x1024x128.BroadcastsInDim S4x1024x128 (![0, 1, 2] : Fin 3 → Fin S4x1024x128.rank)
  reducesTo_S4x1024x128_S4x1024_d2 : S4x1024x128.ReducesTo [2] S4x1024
  bcast_S4096x1024_S4096x1x1024_0_2 : S4096x1024.BroadcastsInDim S4096x1x1024 (![0, 2] : Fin 2 → Fin S4096x1x1024.rank)
  bcast_S4x1024_S1x4x1024_1_2 : S4x1024.BroadcastsInDim S1x4x1024 (![1, 2] : Fin 2 → Fin S1x4x1024.rank)
  bcast_S4096x1x1024_S4096x4x1024_0_1_2 : S4096x1x1024.BroadcastsInDim S4096x4x1024 (![0, 1, 2] : Fin 3 → Fin S4096x4x1024.rank)
  bcast_S1x4x1024_S4096x4x1024_0_1_2 : S1x4x1024.BroadcastsInDim S4096x4x1024 (![0, 1, 2] : Fin 3 → Fin S4096x4x1024.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S1x512_S4096x512_0_1 : S1x512.BroadcastsInDim S4096x512 (![0, 1] : Fin 2 → Fin S4096x512.rank)
  pads_S4096x512_S4096x1024_000_05120 : S4096x512.Pads (![0, 0] : Fin 2 → Nat) ![0, 512] ![0, 0] S4096x1024
  bcast_S1x1024_S4096x1024_0_1 : S1x1024.BroadcastsInDim S4096x1024 (![0, 1] : Fin 2 → Fin S4096x1024.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x512_S512x128_S4096x128_1_0_0_1_n_n_wf : DotDims.WF S4096x512 S512x128 S4096x128 [1] [0] [0] [1] [] []
  dot_S4096x128_S128x4096_S4096x4096_1_0_0_1_n_n_wf : DotDims.WF S4096x128 S128x4096 S4096x4096 [1] [0] [0] [1] [] []
  dot_S4096x1024_S1024x128_S4096x128_1_0_0_1_n_n_wf : DotDims.WF S4096x1024 S1024x128 S4096x128 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

class Facts : Prop extends Facts₀ where

variable [Facts]
-- ==== Proof.CellSpec.lean ====
/-
  The low-rank LSTM cell, entry by entry, over the extended reals.

  The arguments: x [4096,512], h and c [4096,1024], the lifts U_x [512,128] and U_h [1024,128], the lowerings
  V_x and V_h [4096,128] (four gates of 1024 rows each, stacked), the biases b_x and b_h [4096], the diagonals
  dia_x [1,512] and dia_h [1,1024].

  For gate g (0 input, 1 forget, 2 output, 3 new) the pre-activation at batch row b and hidden column j is, with
  n = g * 1024 + j the gate's row of V and of the biases,

      ((x U_x) V_xᵀ)[b,n] + ((h U_h) V_hᵀ)[b,n] + b_x[n] + b_h[n]
        + h[b,j] * (dia_h[j] - corr_h[g,j]) + (x[b,j] * (dia_x[j] - corr_x[g,j])  for j < 512),

  where corr[g,j] = ∑ r, U[j,r] * V[n,r] is the diagonal of U V_gᵀ. This file writes that number in the two
  arrangements the two programs compute it in (`preK`: one product over the 256 stacked ranks and the folded
  coefficients dia - corr; `preR`: two products, the corrections subtracted and the diagonal terms added
  separately, the x terms zero beyond column 512), and the gating both programs share:
      c' = σ(pre 1) * c + σ(pre 0) * tanh(pre 3),    h' = σ(pre 2) * tanh c'.
  Nothing here mentions a program.
-/
import Idealize.ShloMosaic.PureOps.Ideal
import Idealize.ShloMosaic.Lib.ValueIdx

noncomputable section

open scoped BigOperators

namespace Cert.LowRankCell

open Idealize.ShloMosaic Idealize.ShloMosaic.ValueIdx

/-- The eleven argument arrays, as functions of an index into their shapes. -/
structure Args where
  x : (⟨2, ![4096, 512]⟩ : Shape).Idx → EReal
  h : (⟨2, ![4096, 1024]⟩ : Shape).Idx → EReal
  c : (⟨2, ![4096, 1024]⟩ : Shape).Idx → EReal
  Ux : (⟨2, ![512, 128]⟩ : Shape).Idx → EReal
  Uh : (⟨2, ![1024, 128]⟩ : Shape).Idx → EReal
  Vx : (⟨2, ![4096, 128]⟩ : Shape).Idx → EReal
  Vh : (⟨2, ![4096, 128]⟩ : Shape).Idx → EReal
  bx : (⟨1, ![4096]⟩ : Shape).Idx → EReal
  bh : (⟨1, ![4096]⟩ : Shape).Idx → EReal
  dx : (⟨2, ![1, 512]⟩ : Shape).Idx → EReal
  dh : (⟨2, ![1, 1024]⟩ : Shape).Idx → EReal

/-- Every entry of every argument is a real number. -/
structure Args.Real (A : Args) : Prop where
  x : ∀ i, ∃ r : ℝ, A.x i = (r : EReal)
  h : ∀ i, ∃ r : ℝ, A.h i = (r : EReal)
  c : ∀ i, ∃ r : ℝ, A.c i = (r : EReal)
  Ux : ∀ i, ∃ r : ℝ, A.Ux i = (r : EReal)
  Uh : ∀ i, ∃ r : ℝ, A.Uh i = (r : EReal)
  Vx : ∀ i, ∃ r : ℝ, A.Vx i = (r : EReal)
  Vh : ∀ i, ∃ r : ℝ, A.Vh i = (r : EReal)
  bx : ∀ i, ∃ r : ℝ, A.bx i = (r : EReal)
  bh : ∀ i, ∃ r : ℝ, A.bh i = (r : EReal)
  dx : ∀ i, ∃ r : ℝ, A.dx i = (r : EReal)
  dh : ∀ i, ∃ r : ℝ, A.dh i = (r : EReal)

/-- Row `g * 1024 + j` of the stacked lowerings and biases: gate `g`, hidden column `j`. -/
def gcol (g : Fin 4) (j : Fin 1024) : Fin 4096 := ⟨g.val * 1024 + j.val, by have := g.isLt; have := j.isLt; omega⟩

/-- A column of x among the hidden columns. -/
def up (j : Fin 512) : Fin 1024 := ⟨j.val, by have := j.isLt; omega⟩

/-- `(x U_x)[b,r]`. -/
def liftX (A : Args) (b : Fin 4096) (r : Fin 128) : EReal := ∑ k : Fin 512, A.x (ix2 b k) * A.Ux (ix2 k r)

/-- `(h U_h)[b,r]`. -/
def liftH (A : Args) (b : Fin 4096) (r : Fin 128) : EReal := ∑ k : Fin 1024, A.h (ix2 b k) * A.Uh (ix2 k r)

/-- `((x U_x) V_xᵀ)[b,n]`. -/
def lowX (A : Args) (b n : Fin 4096) : EReal := ∑ r : Fin 128, liftX A b r * A.Vx (ix2 n r)

/-- `((h U_h) V_hᵀ)[b,n]`. -/
def lowH (A : Args) (b n : Fin 4096) : EReal := ∑ r : Fin 128, liftH A b r * A.Vh (ix2 n r)

/-- The diagonal of `U_x V_x,gᵀ`: `∑ r, U_x[j,r] * V_x[g*1024+j, r]`, for a column `j` of x. -/
def corrX (A : Args) (g : Fin 4) (j : Fin 512) : EReal := ∑ r : Fin 128, A.Ux (ix2 j r) * A.Vx (ix2 (gcol g (up j)) r)

/-- The diagonal of `U_h V_h,gᵀ`. -/
def corrH (A : Args) (g : Fin 4) (j : Fin 1024) : EReal := ∑ r : Fin 128, A.Uh (ix2 j r) * A.Vh (ix2 (gcol g j) r)

/-- The two lifted rows side by side, `[x U_x | h U_h][b,s]` for `s < 256`. -/
def liftXH (A : Args) (b : Fin 4096) (s : Fin 256) : EReal :=
  if hs : s.val < 128 then liftX A b ⟨s.val, hs⟩ else liftH A b ⟨s.val - 128, by have := s.isLt; omega⟩

/-- The two transposed lowerings one under the other, `[V_xᵀ ; V_hᵀ][s,n]` for `s < 256`. -/
def stackV (A : Args) (s : Fin 256) (n : Fin 4096) : EReal :=
  if hs : s.val < 128 then A.Vx (ix2 n ⟨s.val, hs⟩) else A.Vh (ix2 n ⟨s.val - 128, by have := s.isLt; omega⟩)

/-- The one product over the 256 stacked ranks. -/
def lowK (A : Args) (b n : Fin 4096) : EReal := ∑ s : Fin 256, liftXH A b s * stackV A s n

/-- The folded coefficient of x: `dia_x[j] - corr_x[g,j]`. -/
def ccX (A : Args) (g : Fin 4) (j : Fin 512) : EReal := A.dx (ix2 0 j) - corrX A g j

/-- The folded coefficient of h: `dia_h[j] - corr_h[g,j]`. -/
def ccH (A : Args) (g : Fin 4) (j : Fin 1024) : EReal := A.dh (ix2 0 j) - corrH A g j

/-- Gate `g`'s pre-activation at `(b, j)` in the fused arrangement: the stacked product, the folded h term, the summed
    bias, and on the first 512 columns the folded x term. -/
def preK (A : Args) (g : Fin 4) (b : Fin 4096) (j : Fin 1024) : EReal :=
  if hj : j.val < 512 then
    ((lowK A b (gcol g j) + A.h (ix2 b j) * ccH A g j) + (A.bx (ix1 (gcol g j)) + A.bh (ix1 (gcol g j))))
      + A.x (ix2 b ⟨j.val, hj⟩) * ccX A g ⟨j.val, hj⟩
  else
    (lowK A b (gcol g j) + A.h (ix2 b j) * ccH A g j) + (A.bx (ix1 (gcol g j)) + A.bh (ix1 (gcol g j)))

/-- The x correction `x[b,j] * corr_x[g,j]`, zero beyond column 512. -/
def refinedX (A : Args) (g : Fin 4) (b : Fin 4096) (j : Fin 1024) : EReal :=
  if hj : j.val < 512 then A.x (ix2 b ⟨j.val, hj⟩) * corrX A g ⟨j.val, hj⟩ else 0

/-- The x diagonal term `dia_x[j] * x[b,j]`, zero beyond column 512. -/
def diagX (A : Args) (b : Fin 4096) (j : Fin 1024) : EReal :=
  if hj : j.val < 512 then A.dx (ix2 0 ⟨j.val, hj⟩) * A.x (ix2 b ⟨j.val, hj⟩) else 0

/-- Gate `g`'s pre-activation at `(b, j)` in the separate arrangement: the x half and the h half, each its product less
    its correction plus its bias, and the two diagonal terms. -/
def preR (A : Args) (g : Fin 4) (b : Fin 4096) (j : Fin 1024) : EReal :=
  (((lowX A b (gcol g j) - refinedX A g b j) + A.bx (ix1 (gcol g j)))
    + ((lowH A b (gcol g j) - A.h (ix2 b j) * corrH A g j) + A.bh (ix1 (gcol g j))))
  + (diagX A b j + A.dh (ix2 0 j) * A.h (ix2 b j))

/-- The new cell state from the four pre-activations and the old state. -/
def cNext (p : Fin 4 → EReal) (c : EReal) : EReal :=
  Ideal.logistic (p 1) * c + Ideal.logistic (p 0) * Ideal.tanh (p 3)

/-- The new hidden state. -/
def hNext (p : Fin 4 → EReal) (c : EReal) : EReal := Ideal.logistic (p 2) * Ideal.tanh (cNext p c)

/-- The whole result arrays in the fused arrangement. -/
def cK (A : Args) : (⟨2, ![4096, 1024]⟩ : Shape).Idx → EReal := fun i => cNext (fun g => preK A g (i 0) (i 1)) (A.c i)
def hK (A : Args) : (⟨2, ![4096, 1024]⟩ : Shape).Idx → EReal := fun i => hNext (fun g => preK A g (i 0) (i 1)) (A.c i)

/-- The whole result arrays in the separate arrangement. -/
def cR (A : Args) : (⟨2, ![4096, 1024]⟩ : Shape).Idx → EReal := fun i => cNext (fun g => preR A g (i 0) (i 1)) (A.c i)
def hR (A : Args) : (⟨2, ![4096, 1024]⟩ : Shape).Idx → EReal := fun i => hNext (fun g => preR A g (i 0) (i 1)) (A.c i)

end Cert.LowRankCell

end
-- ==== Proof.LibRealClosed.lean ====
/-
  Closure of the real numbers inside the extended reals.

  An extended real is called real here when it is the image of some real number. Zero and every coerced real are real, and
  the reals are closed under the sum, the difference and the product of the extended reals (whose values at the infinities
  are conventions that never come into play), hence under every finite sum.
-/
import Mathlib

open scoped BigOperators

namespace Cert.Lib.RealClosed

/-- An extended real that is the image of a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is a real. -/
theorem isReal_sum {ι : Type*} (s : Finset ι) (f : ι → EReal) (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- A sum over a whole finite type of reals is a real. -/
theorem isReal_sum_univ {ι : Type*} [Fintype ι] (f : ι → EReal) (hf : ∀ k, IsReal (f k)) :
    IsReal (∑ k, f k) :=
  isReal_sum Finset.univ f fun k _ => hf k

end Cert.Lib.RealClosed
-- ==== Proof.CellAlgebra.lean ====
/-
  The two arrangements of a gate's pre-activation are one number when every entry is real.

  The fused arrangement multiplies the two lifted rows, set side by side, with the two lowerings, set one under the other, in
  one sum over 256 ranks; that sum is the sum of the two products over 128 ranks each, term by term, with no finiteness
  needed. It folds the diagonal and its correction into one coefficient, dia - corr, before multiplying by the entry, where
  the separate arrangement subtracts entry * corr and adds dia * entry apart. Over the extended reals a * (d - c) and
  a * d - a * c can differ at the infinities; over the reals they are equal, and a finite sum of products of reals is a
  real. So with every argument entry real, every atom of both arrangements is a real and the two are equal by the ring laws
  of the real numbers. The gating applied to equal pre-activations gives equal new states.
-/
import proofs.«167605_j26680336843034_2_alg».proof.Proof.CellSpec
import proofs.«167605_j26680336843034_2_alg».proof.Proof.LibRealClosed
import Mathlib

open scoped BigOperators

noncomputable section

namespace Cert.LowRankCell

open Idealize.ShloMosaic Idealize.ShloMosaic.ValueIdx Cert.Lib.RealClosed

/-- A sum over 256 indices is the sum over the first 128 plus the sum over the last 128. -/
theorem sum_fin256_split (f : Fin 256 → EReal) :
    ∑ s : Fin 256, f s
      = ∑ s : Fin 128, f ⟨s.val, by have := s.isLt; omega⟩ + ∑ s : Fin 128, f ⟨128 + s.val, by have := s.isLt; omega⟩ :=
  Fin.sum_univ_add (a := 128) (b := 128) f

/-- The one product over the 256 stacked ranks is the sum of the two products over 128 ranks each. No finiteness is
    needed: the two halves of the stacked sum are the two sums term by term. -/
theorem lowK_eq (A : Args) (b n : Fin 4096) : lowK A b n = lowX A b n + lowH A b n := by
  unfold lowK lowX lowH
  rw [sum_fin256_split]
  refine congrArg₂ (· + ·) (Finset.sum_congr rfl fun s _ => ?_) (Finset.sum_congr rfl fun s _ => ?_)
  · have hs : s.val < 128 := s.isLt
    simp only [liftXH, stackV, dif_pos hs]
  · have hs : ¬ (128 + s.val < 128) := by omega
    have he : (⟨128 + s.val - 128, by have := s.isLt; omega⟩ : Fin 128) = s := Fin.ext (by simp)
    simp only [liftXH, stackV, dif_neg hs, he]

theorem liftX_real (A : Args) (hA : A.Real) (b : Fin 4096) (r : Fin 128) : IsReal (liftX A b r) :=
  isReal_sum_univ _ fun _ => IsReal.mul (hA.x _) (hA.Ux _)

theorem liftH_real (A : Args) (hA : A.Real) (b : Fin 4096) (r : Fin 128) : IsReal (liftH A b r) :=
  isReal_sum_univ _ fun _ => IsReal.mul (hA.h _) (hA.Uh _)

theorem lowX_real (A : Args) (hA : A.Real) (b n : Fin 4096) : IsReal (lowX A b n) :=
  isReal_sum_univ _ fun _ => IsReal.mul (liftX_real A hA _ _) (hA.Vx _)

theorem lowH_real (A : Args) (hA : A.Real) (b n : Fin 4096) : IsReal (lowH A b n) :=
  isReal_sum_univ _ fun _ => IsReal.mul (liftH_real A hA _ _) (hA.Vh _)

theorem corrX_real (A : Args) (hA : A.Real) (g : Fin 4) (j : Fin 512) : IsReal (corrX A g j) :=
  isReal_sum_univ _ fun _ => IsReal.mul (hA.Ux _) (hA.Vx _)

theorem corrH_real (A : Args) (hA : A.Real) (g : Fin 4) (j : Fin 1024) : IsReal (corrH A g j) :=
  isReal_sum_univ _ fun _ => IsReal.mul (hA.Uh _) (hA.Vh _)

/-- The two arrangements on the first 512 columns, as an identity of real numbers. -/
theorem arrange_lt (LX LH hh dh CH bx bh xx dx CX : ℝ) :
    ((((LX : EReal) + LH) + hh * (dh - CH)) + ((bx : EReal) + bh)) + xx * ((dx : EReal) - CX)
      = ((((LX : EReal) - xx * CX) + bx) + (((LH : EReal) - hh * CH) + bh)) + ((dx : EReal) * xx + dh * hh) := by
  simp only [← EReal.coe_mul, ← EReal.coe_add, ← EReal.coe_sub]
  congr 1
  ring

/-- The two arrangements beyond column 512, where the x terms are zero. -/
theorem arrange_ge (LX LH hh dh CH bx bh : ℝ) :
    (((LX : EReal) + LH) + hh * (dh - CH)) + ((bx : EReal) + bh)
      = ((((LX : EReal) - 0) + bx) + (((LH : EReal) - hh * CH) + bh)) + ((0 : EReal) + dh * hh) := by
  rw [← EReal.coe_zero]
  simp only [← EReal.coe_mul, ← EReal.coe_add, ← EReal.coe_sub]
  congr 1
  ring

/-- With every entry real, the fused and the separate arrangement of a gate's pre-activation are one number. -/
theorem preK_eq_preR (A : Args) (hA : A.Real) (g : Fin 4) (b : Fin 4096) (j : Fin 1024) :
    preK A g b j = preR A g b j := by
  obtain ⟨LX, hLX⟩ := lowX_real A hA b (gcol g j)
  obtain ⟨LH, hLH⟩ := lowH_real A hA b (gcol g j)
  obtain ⟨CH, hCH⟩ := corrH_real A hA g j
  obtain ⟨hh, hhh⟩ := hA.h (ix2 b j)
  obtain ⟨dh, hdh⟩ := hA.dh (ix2 0 j)
  obtain ⟨bx, hbx⟩ := hA.bx (ix1 (gcol g j))
  obtain ⟨bh, hbh⟩ := hA.bh (ix1 (gcol g j))
  by_cases hj : j.val < 512
  · obtain ⟨xx, hxx⟩ := hA.x (ix2 b ⟨j.val, hj⟩)
    obtain ⟨dx, hdx⟩ := hA.dx (ix2 0 ⟨j.val, hj⟩)
    obtain ⟨CX, hCX⟩ := corrX_real A hA g ⟨j.val, hj⟩
    simp only [preK, preR, refinedX, diagX, ccX, ccH, dif_pos hj, lowK_eq, hLX, hLH, hCH, hhh, hdh, hbx, hbh, hxx,
      hdx, hCX]
    exact arrange_lt LX LH hh dh CH bx bh xx dx CX
  · simp only [preK, preR, refinedX, diagX, ccH, dif_neg hj, lowK_eq, hLX, hLH, hCH, hhh, hdh, hbx, hbh]
    exact arrange_ge LX LH hh dh CH bx bh

/-- With every entry real, the two arrangements give the same new cell state. -/
theorem cK_eq_cR (A : Args) (hA : A.Real) : cK A = cR A := by
  funext i
  have hp : (fun g => preK A g (i 0) (i 1)) = fun g => preR A g (i 0) (i 1) :=
    funext fun g => preK_eq_preR A hA g (i 0) (i 1)
  exact congrArg (fun p => cNext p (A.c i)) hp

/-- With every entry real, the two arrangements give the same new hidden state. -/
theorem hK_eq_hR (A : Args) (hA : A.Real) : hK A = hR A := by
  funext i
  have hp : (fun g => preK A g (i 0) (i 1)) = fun g => preR A g (i 0) (i 1) :=
    funext fun g => preK_eq_preR A hA g (i 0) (i 1)
  exact congrArg (fun p => hNext p (A.c i)) hp

end Cert.LowRankCell

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«167605_j26680336843034_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.FiniteArgs.lean ====
/-
  The precondition makes every entry of every argument a real number.

  The printed test compares, for each of the eleven arguments, the absolute value of every entry with +∞, folds the
  one-bit answers of each argument by `and` over all axes, and joins the eleven bits by `and`. If the joined bit is 1,
  each of the eleven bits is 1, so every comparison is 1, and an extended real whose absolute value is below +∞ is a real.
-/
import proofs.«167605_j26680336843034_2_alg».proof.Pre_finite_inputs
import proofs.«167605_j26680336843034_2_alg».proof.Proof.CellSpec
import proofs.«167605_j26680336843034_2_alg».proof.Proof.LibAllFinite

noncomputable section

namespace Cert.LowRankCell

open Idealize.ShloMosaic Cert.Pre_finite_inputs

/-- The printed test of the eleven arguments, each "all entries have absolute value below +∞", and-ed together, being
    true makes every entry of every argument a real number. -/
theorem real_of_finite_inputs [Cert.Pre_finite_inputs.Facts] (A : Cert.LowRankCell.Args)
    (h : Cert.Pre_finite_inputs.fn (F := Ideal) A.x A.h A.c A.Ux A.Uh A.Vx A.Vh A.bx A.bh A.dx A.dh = fun _ => 1#1) :
    A.Real := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, hdh⟩ := IntOp.andi_eq_one.1 h0
  obtain ⟨h0, hdx⟩ := IntOp.andi_eq_one.1 h0
  obtain ⟨h0, hbh⟩ := IntOp.andi_eq_one.1 h0
  obtain ⟨h0, hbx⟩ := IntOp.andi_eq_one.1 h0
  obtain ⟨h0, hVh⟩ := IntOp.andi_eq_one.1 h0
  obtain ⟨h0, hVx⟩ := IntOp.andi_eq_one.1 h0
  obtain ⟨h0, hUh⟩ := IntOp.andi_eq_one.1 h0
  obtain ⟨h0, hUx⟩ := IntOp.andi_eq_one.1 h0
  obtain ⟨h0, hc⟩ := IntOp.andi_eq_one.1 h0
  obtain ⟨hx, hh⟩ := IntOp.andi_eq_one.1 h0
  exact ⟨Cert.Lib.AllFinite.real_of_all_abs_lt_top _ _ (fun _ => rfl) _ _ _ _ hx,
    Cert.Lib.AllFinite.real_of_all_abs_lt_top _ _ (fun _ => rfl) _ _ _ _ hh,
    Cert.Lib.AllFinite.real_of_all_abs_lt_top _ _ (fun _ => rfl) _ _ _ _ hc,
    Cert.Lib.AllFinite.real_of_all_abs_lt_top _ _ (fun _ => rfl) _ _ _ _ hUx,
    Cert.Lib.AllFinite.real_of_all_abs_lt_top _ _ (fun _ => rfl) _ _ _ _ hUh,
    Cert.Lib.AllFinite.real_of_all_abs_lt_top _ _ (fun _ => rfl) _ _ _ _ hVx,
    Cert.Lib.AllFinite.real_of_all_abs_lt_top _ _ (fun _ => rfl) _ _ _ _ hVh,
    Cert.Lib.AllFinite.real_of_all_abs_lt_top _ _ (fun _ => rfl) _ _ _ _ hbx,
    Cert.Lib.AllFinite.real_of_all_abs_lt_top _ _ (fun _ => rfl) _ _ _ _ hbh,
    Cert.Lib.AllFinite.real_of_all_abs_lt_top _ _ (fun _ => rfl) _ _ _ _ hdx,
    Cert.Lib.AllFinite.real_of_all_abs_lt_top _ _ (fun _ => rfl) _ _ _ _ hdh⟩

end Cert.LowRankCell

end
-- ==== Proof.RefSide.lean ====
/-
  The reference program computes the separate arrangement of the low-rank LSTM cell.

  Reading the reference one operation at a time, at one entry (b, j) of the result: the two chained products are
  `lowX` and `lowH`; the reductions of the entrywise products of a lift with a gate's block of a lowering are the
  diagonals `corrX` and `corrH`; the zero padding of the x correction and of the x diagonal term beyond column 512
  are the `if` of `refinedX` and `diagX`; the reshapes between [4096, 4, 1024] and [4096, 4096] and the four column
  slices move between the pair (gate g, column j) and the stacked row g * 1024 + j; and one over one plus the
  exponential of the negation is the logistic function. So the two results are `hR` and `cR`, with no hypothesis on
  the arguments.
-/
import proofs.«167605_j26680336843034_2_alg».proof.Proof.Gen.ReferenceIdeal.Read
import proofs.«167605_j26680336843034_2_alg».proof.Proof.CellSpec
import Idealize.ShloMosaic.Lib.KernelVsHost
import Idealize.ShloMosaic.Lib.IdealHost

noncomputable section

open scoped BigOperators

namespace Cert.ReferenceIdeal.RefValue

open Cert.ReferenceIdeal Cert.ReferenceIdeal.Gen Cert.ReferenceIdeal.Read Cert.LowRankCell
open Idealize.ShloMosaic Idealize.ShloMosaic.ValueIdx

/-! ## The two chained products -/

/-- `x U_x` at `(b, r)`. -/
theorem v0_eq (A : Args) (b : Fin 4096) (r : Fin 128) :
    val_main_v0 (F := Ideal) A.x A.Ux (ix2 b r) = liftX A b r := by
  rw [val_main_v0_apply]
  unfold liftX
  refine Finset.sum_congr rfl fun k _ => ?_
  have el : lidx_main_v0 (ix2 b r) k = ix2 b k := funext fun a => match a with | ⟨0, _⟩ => rfl | ⟨1, _⟩ => rfl
  have er : ridx_main_v0 (ix2 b r) k = ix2 k r := funext fun a => match a with | ⟨0, _⟩ => rfl | ⟨1, _⟩ => rfl
  rw [el, er]

/-- `h U_h` at `(b, r)`. -/
theorem v3_eq (A : Args) (b : Fin 4096) (r : Fin 128) :
    val_main_v3 (F := Ideal) A.h A.Uh (ix2 b r) = liftH A b r := by
  rw [val_main_v3_apply]
  unfold liftH
  refine Finset.sum_congr rfl fun k _ => ?_
  have el : lidx_main_v3 (ix2 b r) k = ix2 b k := funext fun a => match a with | ⟨0, _⟩ => rfl | ⟨1, _⟩ => rfl
  have er : ridx_main_v3 (ix2 b r) k = ix2 k r := funext fun a => match a with | ⟨0, _⟩ => rfl | ⟨1, _⟩ => rfl
  rw [el, er]

/-- `(x U_x) V_xᵀ` at `(b, n)`: the transpose reads `V_x` at `(n, r)`. -/
theorem v2_eq (A : Args) (b n : Fin 4096) :
    val_main_v2 (F := Ideal) A.x A.Ux A.Vx (ix2 b n) = lowX A b n := by
  rw [val_main_v2_apply]
  unfold lowX
  refine Finset.sum_congr rfl fun k _ => ?_
  have el : lidx_main_v2 (ix2 b n) k = ix2 b k := funext fun a => match a with | ⟨0, _⟩ => rfl | ⟨1, _⟩ => rfl
  have er : idx_main_v1 (ridx_main_v2 (ix2 b n) k) = ix2 n k := funext fun a => match a with | ⟨0, _⟩ => rfl | ⟨1, _⟩ => rfl
  rw [el, v0_eq, val_main_v1_apply, er]

/-- `(h U_h) V_hᵀ` at `(b, n)`. -/
theorem v5_eq (A : Args) (b n : Fin 4096) :
    val_main_v5 (F := Ideal) A.h A.Uh A.Vh (ix2 b n) = lowH A b n := by
  rw [val_main_v5_apply]
  unfold lowH
  refine Finset.sum_congr rfl fun k _ => ?_
  have el : lidx_main_v5 (ix2 b n) k = ix2 b k := funext fun a => match a with | ⟨0, _⟩ => rfl | ⟨1, _⟩ => rfl
  have er : idx_main_v4 (ridx_main_v5 (ix2 b n) k) = ix2 n k := funext fun a => match a with | ⟨0, _⟩ => rfl | ⟨1, _⟩ => rfl
  rw [el, v3_eq, val_main_v4_apply, er]

/-! ## The diagonals of `U V_gᵀ` -/

/-- The sum over the rank of `U_x[j, r] * V_x[g * 1024 + j, r]`, from the zero initial value. -/
theorem v11_eq (A : Args) (g : Fin 4) (j : Fin 512) :
    val_main_v11 (F := Ideal) A.Ux A.Vx (ix2 g j) = corrX A g j := by
  rw [val_main_v11_apply, val_main_cst_apply, Ideal.ofBits_def, Ideal.ofBits_zero_f32, zero_add]
  unfold corrX
  refine Finset.sum_congr rfl fun k _ => ?_
  have e1 : idx_main_v7 (idx_main_v9 (idx_main_v11 (ix2 g j) k)) = ix2 j k := funext fun a => match a with | ⟨0, _⟩ => rfl | ⟨1, _⟩ => rfl
  have e2 : idx_main_v6 (idx_main_v8 (idx_main_v11 (ix2 g j) k)) = ix2 (gcol g (up j)) k := funext fun a => Fin.ext (by
    have hg := g.isLt; have hj := j.isLt; have hk := k.isLt
    match a with
    | ⟨0, _⟩ => show ((g.val * 1024 + j.val) * 128 + k.val) / 128 = g.val * 1024 + j.val; omega
    | ⟨1, _⟩ => show ((g.val * 1024 + j.val) * 128 + k.val) % 128 = k.val; omega)
  rw [val_main_v10_apply, Ideal.mulf_def, val_main_v9_apply, val_main_v7_apply, val_main_v8_apply, val_main_v6_apply, e1, e2]

/-- The same for h, over all 1024 columns. -/
theorem v23_eq (A : Args) (g : Fin 4) (j : Fin 1024) :
    val_main_v23 (F := Ideal) A.Uh A.Vh (ix2 g j) = corrH A g j := by
  rw [val_main_v23_apply, val_main_cst_0_apply, Ideal.ofBits_def, Ideal.ofBits_zero_f32, zero_add]
  unfold corrH
  refine Finset.sum_congr rfl fun k _ => ?_
  have e1 : idx_main_v20 (idx_main_v21 (idx_main_v23 (ix2 g j) k)) = ix2 j k := funext fun a => match a with | ⟨0, _⟩ => rfl | ⟨1, _⟩ => rfl
  have e2 : idx_main_v19 (idx_main_v23 (ix2 g j) k) = ix2 (gcol g j) k := funext fun a => Fin.ext (by
    have hg := g.isLt; have hj := j.isLt; have hk := k.isLt
    match a with
    | ⟨0, _⟩ => show ((g.val * 1024 + j.val) * 128 + k.val) / 128 = g.val * 1024 + j.val; omega
    | ⟨1, _⟩ => show ((g.val * 1024 + j.val) * 128 + k.val) % 128 = k.val; omega)
  rw [val_main_v22_apply, Ideal.mulf_def, val_main_v21_apply, val_main_v20_apply, val_main_v19_apply, e1, e2]

/-! ## The padding value -/

/-- The integer zero converted is the real zero. -/
theorem padval0 (i : S_.Idx) : val_main_call0_v0 (F := Ideal) i = 0 := by
  show ((((0#32 : BitVec 32).toInt : ℤ) : ℝ) : EReal) = 0
  simp

theorem padval1 (i : S_.Idx) : val_main_call1_v0 (F := Ideal) i = 0 := by
  show ((((0#32 : BitVec 32).toInt : ℤ) : ℝ) : EReal) = 0
  simp

/-! ## The corrections, as rows of the stacked gates -/

/-- `x[b, j] * corr_x[g, j]` before the padding. -/
theorem v16_eq (A : Args) (b : Fin 4096) (g : Fin 4) (j : Fin 512) :
    val_main_v16 (F := Ideal) A.x A.Ux A.Vx (ix3 b g j) = A.x (ix2 b j) * corrX A g j := by
  have e1 : idx_main_v12 (idx_main_v14 (ix3 b g j)) = ix2 b j := funext fun a => match a with | ⟨0, _⟩ => rfl | ⟨1, _⟩ => rfl
  have e2 : idx_main_v13 (idx_main_v15 (ix3 b g j)) = ix2 g j := funext fun a => match a with | ⟨0, _⟩ => rfl | ⟨1, _⟩ => rfl
  rw [val_main_v16_apply, Ideal.mulf_def, val_main_v14_apply, val_main_v12_apply, val_main_v15_apply, val_main_v13_apply,
    e1, e2, v11_eq]

/-- The padded and reshaped x correction at row `g * 1024 + j`: the product on the first 512 columns, zero beyond. -/
theorem v18_eq (A : Args) (g : Fin 4) (b : Fin 4096) (j : Fin 1024) :
    val_main_v18 (F := Ideal) A.x A.Ux A.Vx (ix2 b (gcol g j)) = refinedX A g b j := by
  have e18 : idx_main_v18 (ix2 b (gcol g j)) = ix3 b g j := funext fun a => Fin.ext (by
    have hb := b.isLt; have hg := g.isLt; have hj := j.isLt
    match a with
    | ⟨0, _⟩ => show (b.val * 4096 + (g.val * 1024 + j.val)) / 4096 = b.val; omega
    | ⟨1, _⟩ => show (b.val * 4096 + (g.val * 1024 + j.val)) / 1024 % 4 = g.val; omega
    | ⟨2, _⟩ => show (b.val * 4096 + (g.val * 1024 + j.val)) % 1024 = j.val; omega)
  rw [val_main_v18_apply, e18]
  unfold refinedX val_main_v17
  by_cases hj : j.val < 512
  · rw [dif_pos hj]
    refine (pad_apply_of_inside _ _ _ _ _ pads_S4096x4x512_S4096x4x1024_000_000_05120 h_S_ _
      (ix3 b g (⟨j.val, hj⟩ : Fin 512)) (by
        intro a
        match a with
        | ⟨0, _⟩ => show b.val = 0 + b.val * (0 + 1); omega
        | ⟨1, _⟩ => show g.val = 0 + g.val * (0 + 1); omega
        | ⟨2, _⟩ => show j.val = 0 + j.val * (0 + 1); omega)).trans ?_
    exact v16_eq A b g ⟨j.val, hj⟩
  · rw [dif_neg hj]
    refine (pad_apply_of_not_inside _ _ _ _ _ pads_S4096x4x512_S4096x4x1024_000_000_05120 h_S_ _ (2 : Fin 3) (by
      intro hin
      have e : (j.val - 0) / (0 + 1) < 512 := hin.2.2
      omega)).trans ?_
    exact padval0 _

/-- The reshaped h correction at row `g * 1024 + j`. -/
theorem v29_eq (A : Args) (g : Fin 4) (b : Fin 4096) (j : Fin 1024) :
    val_main_v29 (F := Ideal) A.h A.Uh A.Vh (ix2 b (gcol g j)) = A.h (ix2 b j) * corrH A g j := by
  have e29 : idx_main_v29 (ix2 b (gcol g j)) = ix3 b g j := funext fun a => Fin.ext (by
    have hb := b.isLt; have hg := g.isLt; have hj := j.isLt
    match a with
    | ⟨0, _⟩ => show (b.val * 4096 + (g.val * 1024 + j.val)) / 4096 = b.val; omega
    | ⟨1, _⟩ => show (b.val * 4096 + (g.val * 1024 + j.val)) / 1024 % 4 = g.val; omega
    | ⟨2, _⟩ => show (b.val * 4096 + (g.val * 1024 + j.val)) % 1024 = j.val; omega)
  have e1 : idx_main_v24 (idx_main_v26 (ix3 b g j)) = ix2 b j := funext fun a => match a with | ⟨0, _⟩ => rfl | ⟨1, _⟩ => rfl
  have e2 : idx_main_v25 (idx_main_v27 (ix3 b g j)) = ix2 g j := funext fun a => match a with | ⟨0, _⟩ => rfl | ⟨1, _⟩ => rfl
  rw [val_main_v29_apply, e29, val_main_v28_apply, Ideal.mulf_def, val_main_v26_apply, val_main_v24_apply,
    val_main_v27_apply, val_main_v25_apply, e1, e2, v23_eq]

/-! ## The two halves of a gate's row -/

/-- The x half: the product less the correction plus the bias. -/
theorem v33_eq (A : Args) (g : Fin 4) (b : Fin 4096) (j : Fin 1024) :
    val_main_v33 (F := Ideal) A.x A.Ux A.Vx A.bx (ix2 b (gcol g j))
      = (lowX A b (gcol g j) - refinedX A g b j) + A.bx (ix1 (gcol g j)) := by
  have e : idx_main_v31 (idx_main_v32 (ix2 b (gcol g j))) = ix1 (gcol g j) :=
    funext fun a => match a with | ⟨0, _⟩ => rfl
  rw [val_main_v33_apply, Ideal.addf_def, val_main_v30_apply, Ideal.subf_def, v2_eq, v18_eq, val_main_v32_apply,
    val_main_v31_apply, e]

/-- The h half. -/
theorem v37_eq (A : Args) (g : Fin 4) (b : Fin 4096) (j : Fin 1024) :
    val_main_v37 (F := Ideal) A.h A.Uh A.Vh A.bh (ix2 b (gcol g j))
      = (lowH A b (gcol g j) - A.h (ix2 b j) * corrH A g j) + A.bh (ix1 (gcol g j)) := by
  have e : idx_main_v35 (idx_main_v36 (ix2 b (gcol g j))) = ix1 (gcol g j) :=
    funext fun a => match a with | ⟨0, _⟩ => rfl
  rw [val_main_v37_apply, Ideal.addf_def, val_main_v34_apply, Ideal.subf_def, v5_eq, v29_eq, val_main_v36_apply,
    val_main_v35_apply, e]

/-! ## The diagonal terms -/

/-- `dia_x[j] * x[b, j]` before the padding. -/
theorem v39_eq (A : Args) (b : Fin 4096) (j : Fin 512) :
    val_main_v39 (F := Ideal) A.x A.dx (ix2 b j) = A.dx (ix2 0 j) * A.x (ix2 b j) := by
  have e : idx_main_v38 (ix2 b j) = ix2 0 j := funext fun a => match a with | ⟨0, _⟩ => rfl | ⟨1, _⟩ => rfl
  rw [val_main_v39_apply, Ideal.mulf_def, val_main_v38_apply, e]

/-- The padded x diagonal term. -/
theorem v40_eq (A : Args) (b : Fin 4096) (j : Fin 1024) :
    val_main_v40 (F := Ideal) A.x A.dx (ix2 b j) = diagX A b j := by
  unfold diagX val_main_v40
  by_cases hj : j.val < 512
  · rw [dif_pos hj]
    refine (pad_apply_of_inside _ _ _ _ _ pads_S4096x512_S4096x1024_000_05120 h_S_ _
      (ix2 b (⟨j.val, hj⟩ : Fin 512)) (by
        intro a
        match a with
        | ⟨0, _⟩ => show b.val = 0 + b.val * (0 + 1); omega
        | ⟨1, _⟩ => show j.val = 0 + j.val * (0 + 1); omega)).trans ?_
    exact v39_eq A b ⟨j.val, hj⟩
  · rw [dif_neg hj]
    refine (pad_apply_of_not_inside _ _ _ _ _ pads_S4096x512_S4096x1024_000_05120 h_S_ _ (1 : Fin 2) (by
      intro hin
      have e : (j.val - 0) / (0 + 1) < 512 := hin.2.2
      omega)).trans ?_
    exact padval1 _

/-- The sum of the two diagonal terms. -/
theorem v43_eq (A : Args) (b : Fin 4096) (j : Fin 1024) :
    val_main_v43 (F := Ideal) A.x A.h A.dx A.dh (ix2 b j) = diagX A b j + A.dh (ix2 0 j) * A.h (ix2 b j) := by
  have e : idx_main_v41 (ix2 b j) = ix2 0 j := funext fun a => match a with | ⟨0, _⟩ => rfl | ⟨1, _⟩ => rfl
  rw [val_main_v43_apply, Ideal.addf_def, v40_eq, val_main_v42_apply, Ideal.mulf_def, val_main_v41_apply, e]

/-! ## The four pre-activations -/

/-- Gate 0: the two column slices at offset 0 summed with the diagonal terms. -/
theorem pre0 (A : Args) (b : Fin 4096) (j : Fin 1024) :
    val_main_v53 (F := Ideal) A.x A.h A.Ux A.Uh A.Vx A.Vh A.bx A.bh A.dx A.dh (ix2 b j) = preR A 0 b j := by
  have e1 : idx_main_v44 (ix2 b j) = ix2 b (gcol 0 j) := funext fun a => Fin.ext (by
    match a with
    | ⟨0, _⟩ => rfl
    | ⟨1, _⟩ => show j.val = 0 * 1024 + j.val; omega)
  have e2 : idx_main_v48 (ix2 b j) = ix2 b (gcol 0 j) := funext fun a => Fin.ext (by
    match a with
    | ⟨0, _⟩ => rfl
    | ⟨1, _⟩ => show j.val = 0 * 1024 + j.val; omega)
  rw [val_main_v53_apply, Ideal.addf_def, val_main_v52_apply, Ideal.addf_def, val_main_v44_apply, val_main_v48_apply,
    e1, e2, v33_eq, v37_eq, v43_eq]
  rfl

/-- Gate 1: the two column slices at offset 1024 summed with the diagonal terms. -/
theorem pre1 (A : Args) (b : Fin 4096) (j : Fin 1024) :
    val_main_v61 (F := Ideal) A.x A.h A.Ux A.Uh A.Vx A.Vh A.bx A.bh A.dx A.dh (ix2 b j) = preR A 1 b j := by
  have e1 : idx_main_v45 (ix2 b j) = ix2 b (gcol 1 j) := funext fun a => Fin.ext (by
    match a with
    | ⟨0, _⟩ => rfl
    | ⟨1, _⟩ => show 1024 + j.val = 1 * 1024 + j.val; omega)
  have e2 : idx_main_v49 (ix2 b j) = ix2 b (gcol 1 j) := funext fun a => Fin.ext (by
    match a with
    | ⟨0, _⟩ => rfl
    | ⟨1, _⟩ => show 1024 + j.val = 1 * 1024 + j.val; omega)
  rw [val_main_v61_apply, Ideal.addf_def, val_main_v60_apply, Ideal.addf_def, val_main_v45_apply, val_main_v49_apply,
    e1, e2, v33_eq, v37_eq, v43_eq]
  rfl

/-- Gate 2: the two column slices at offset 2048 summed with the diagonal terms. -/
theorem pre2 (A : Args) (b : Fin 4096) (j : Fin 1024) :
    val_main_v69 (F := Ideal) A.x A.h A.Ux A.Uh A.Vx A.Vh A.bx A.bh A.dx A.dh (ix2 b j) = preR A 2 b j := by
  have e1 : idx_main_v46 (ix2 b j) = ix2 b (gcol 2 j) := funext fun a => Fin.ext (by
    match a with
    | ⟨0, _⟩ => rfl
    | ⟨1, _⟩ => show 2048 + j.val = 2 * 1024 + j.val; omega)
  have e2 : idx_main_v50 (ix2 b j) = ix2 b (gcol 2 j) := funext fun a => Fin.ext (by
    match a with
    | ⟨0, _⟩ => rfl
    | ⟨1, _⟩ => show 2048 + j.val = 2 * 1024 + j.val; omega)
  rw [val_main_v69_apply, Ideal.addf_def, val_main_v68_apply, Ideal.addf_def, val_main_v46_apply, val_main_v50_apply,
    e1, e2, v33_eq, v37_eq, v43_eq]
  rfl

/-- Gate 3: the two column slices at offset 3072 summed with the diagonal terms. -/
theorem pre3 (A : Args) (b : Fin 4096) (j : Fin 1024) :
    val_main_v77 (F := Ideal) A.x A.h A.Ux A.Uh A.Vx A.Vh A.bx A.bh A.dx A.dh (ix2 b j) = preR A 3 b j := by
  have e1 : idx_main_v47 (ix2 b j) = ix2 b (gcol 3 j) := funext fun a => Fin.ext (by
    match a with
    | ⟨0, _⟩ => rfl
    | ⟨1, _⟩ => show 3072 + j.val = 3 * 1024 + j.val; omega)
  have e2 : idx_main_v51 (ix2 b j) = ix2 b (gcol 3 j) := funext fun a => Fin.ext (by
    match a with
    | ⟨0, _⟩ => rfl
    | ⟨1, _⟩ => show 3072 + j.val = 3 * 1024 + j.val; omega)
  rw [val_main_v77_apply, Ideal.addf_def, val_main_v76_apply, Ideal.addf_def, val_main_v47_apply, val_main_v51_apply,
    e1, e2, v33_eq, v37_eq, v43_eq]
  rfl

/-! ## The gating -/

/-- The broadcast constants are the real one. -/
theorem one56 (i : S4096x1024.Idx) : val_main_v56 (F := Ideal) i = 1 := by
  rw [val_main_v56_apply, val_main_cst_2_apply, Ideal.ofBits_def, Ideal.ofBits_one_f32]
theorem one58 (i : S4096x1024.Idx) : val_main_v58 (F := Ideal) i = 1 := by
  rw [val_main_v58_apply, val_main_cst_3_apply, Ideal.ofBits_def, Ideal.ofBits_one_f32]
theorem one64 (i : S4096x1024.Idx) : val_main_v64 (F := Ideal) i = 1 := by
  rw [val_main_v64_apply, val_main_cst_4_apply, Ideal.ofBits_def, Ideal.ofBits_one_f32]
theorem one66 (i : S4096x1024.Idx) : val_main_v66 (F := Ideal) i = 1 := by
  rw [val_main_v66_apply, val_main_cst_5_apply, Ideal.ofBits_def, Ideal.ofBits_one_f32]
theorem one72 (i : S4096x1024.Idx) : val_main_v72 (F := Ideal) i = 1 := by
  rw [val_main_v72_apply, val_main_cst_6_apply, Ideal.ofBits_def, Ideal.ofBits_one_f32]
theorem one74 (i : S4096x1024.Idx) : val_main_v74 (F := Ideal) i = 1 := by
  rw [val_main_v74_apply, val_main_cst_7_apply, Ideal.ofBits_def, Ideal.ofBits_one_f32]

/-- Gate 0's activation: one over one plus the exponential of the negated pre-activation is the logistic function. -/
theorem gate0 (A : Args) (b : Fin 4096) (j : Fin 1024) :
    val_main_v59 (F := Ideal) A.x A.h A.Ux A.Uh A.Vx A.Vh A.bx A.bh A.dx A.dh (ix2 b j) = Ideal.logistic (preR A 0 b j) := by
  rw [val_main_v59_apply, Ideal.hostDivf_def, val_main_v57_apply, Ideal.addf_def, val_main_v55_apply,
    Ideal.hostUnary_exp_def, val_main_v54_apply, Ideal.hostNegf_def, Ideal.negf_def, one58, one56, pre0]
  rfl

/-- Gate 1's activation: one over one plus the exponential of the negated pre-activation is the logistic function. -/
theorem gate1 (A : Args) (b : Fin 4096) (j : Fin 1024) :
    val_main_v67 (F := Ideal) A.x A.h A.Ux A.Uh A.Vx A.Vh A.bx A.bh A.dx A.dh (ix2 b j) = Ideal.logistic (preR A 1 b j) := by
  rw [val_main_v67_apply, Ideal.hostDivf_def, val_main_v65_apply, Ideal.addf_def, val_main_v63_apply,
    Ideal.hostUnary_exp_def, val_main_v62_apply, Ideal.hostNegf_def, Ideal.negf_def, one66, one64, pre1]
  rfl

/-- Gate 2's activation: one over one plus the exponential of the negated pre-activation is the logistic function. -/
theorem gate2 (A : Args) (b : Fin 4096) (j : Fin 1024) :
    val_main_v75 (F := Ideal) A.x A.h A.Ux A.Uh A.Vx A.Vh A.bx A.bh A.dx A.dh (ix2 b j) = Ideal.logistic (preR A 2 b j) := by
  rw [val_main_v75_apply, Ideal.hostDivf_def, val_main_v73_apply, Ideal.addf_def, val_main_v71_apply,
    Ideal.hostUnary_exp_def, val_main_v70_apply, Ideal.hostNegf_def, Ideal.negf_def, one74, one72, pre2]
  rfl

/-- The new cell state at `(b, j)`. -/
theorem c_eq (A : Args) (b : Fin 4096) (j : Fin 1024) :
    val_main_v81 (F := Ideal) A.x A.h A.c A.Ux A.Uh A.Vx A.Vh A.bx A.bh A.dx A.dh (ix2 b j) = cNext (fun g => preR A g b j) (A.c (ix2 b j)) := by
  rw [val_main_v81_apply, Ideal.addf_def, val_main_v79_apply, Ideal.mulf_def, val_main_v80_apply, Ideal.mulf_def,
    val_main_v78_apply, Ideal.hostUnary_tanh_def, gate1, gate0, pre3]
  rfl

/-- The new hidden state at `(b, j)`. -/
theorem h_eq (A : Args) (b : Fin 4096) (j : Fin 1024) :
    val_main_v83 (F := Ideal) A.x A.h A.c A.Ux A.Uh A.Vx A.Vh A.bx A.bh A.dx A.dh (ix2 b j) = hNext (fun g => preR A g b j) (A.c (ix2 b j)) := by
  rw [val_main_v83_apply, Ideal.mulf_def, val_main_v82_apply, Ideal.hostUnary_tanh_def, gate2, c_eq]
  rfl

/-! ## The reference's two results -/

/-- The reference's second result is `cR`. -/
theorem ref_c (A : Args) (i : S4096x1024.Idx) :
    val_main_v81 (F := Ideal) A.x A.h A.c A.Ux A.Uh A.Vx A.Vh A.bx A.bh A.dx A.dh i = cR A i := by
  obtain ⟨b, j, rfl⟩ : ∃ (b : Fin 4096) (j : Fin 1024), i = ix2 b j := ⟨i 0, i 1, eq_ix2 i⟩
  exact c_eq A b j

/-- The reference's first result is `hR`. -/
theorem ref_h (A : Args) (i : S4096x1024.Idx) :
    val_main_v83 (F := Ideal) A.x A.h A.c A.Ux A.Uh A.Vx A.Vh A.bx A.bh A.dx A.dh i = hR A i := by
  obtain ⟨b, j, rfl⟩ : ∃ (b : Fin 4096) (j : Fin 1024), i = ix2 b j := ⟨i 0, i 1, eq_ix2 i⟩
  exact h_eq A b j

end Cert.ReferenceIdeal.RefValue

end
-- ==== Proof.CorrRead.lean ====
/-
  The diagonal corrections read off the host operations that compute them.

  Both programs compute corr_x [4,512] and corr_h [4,1024] by the same six host operations: V reshaped to
  [4,1024,128], U laid under a leading unit axis and repeated four times, the slice of the first 512 rows (for x),
  the product entry by entry and the sum over the last axis from zero. Read at (g, j) that is
  ∑ r, U[j,r] * V[g*1024+j, r].
-/
import proofs.«167605_j26680336843034_2_alg».proof.Proof.Gen.ReferenceIdeal.Read
import proofs.«167605_j26680336843034_2_alg».proof.Proof.CellSpec

noncomputable section

open scoped BigOperators

namespace Cert.ReferenceIdeal.CorrRead

open Cert.ReferenceIdeal Cert.ReferenceIdeal.Read Idealize.ShloMosaic Idealize.ShloMosaic.ValueIdx Cert.LowRankCell

/-- The x correction at gate `g`, column `j`. -/
theorem corrX_read (A : Args) (g : Fin 4) (j : Fin 512) :
    val_main_v11 (F := Ideal) A.Ux A.Vx (ix2 g j) = corrX A g j := by
  rw [val_main_v11_apply]
  show Ideal.ofBits .f32 0x00000000#32 + _ = _
  rw [Ideal.ofBits_zero_f32, zero_add]
  unfold corrX
  refine Finset.sum_congr rfl fun r _ => ?_
  rw [val_main_v10_apply, val_main_v9_apply, val_main_v7_apply, val_main_v8_apply, val_main_v6_apply]
  have e1 : idx_main_v7 (idx_main_v9 (idx_main_v11 (ix2 g j) r)) = ix2 j r :=
    funext fun a => Fin.ext (by match a with | ⟨0, _⟩ => rfl | ⟨1, _⟩ => rfl)
  have e2 : idx_main_v6 (idx_main_v8 (idx_main_v11 (ix2 g j) r)) = ix2 (gcol g (up j)) r :=
    funext fun a => Fin.ext (by
      have hg := g.isLt; have hj := j.isLt; have hr := r.isLt
      match a with
      | ⟨0, _⟩ => show ((g.val * 1024 + j.val) * 128 + r.val) / 128 = g.val * 1024 + j.val; omega
      | ⟨1, _⟩ => show ((g.val * 1024 + j.val) * 128 + r.val) % 128 = r.val; omega)
  rw [e1, e2]
  rfl

/-- The h correction at gate `g`, column `j`. -/
theorem corrH_read (A : Args) (g : Fin 4) (j : Fin 1024) :
    val_main_v23 (F := Ideal) A.Uh A.Vh (ix2 g j) = corrH A g j := by
  rw [val_main_v23_apply]
  show Ideal.ofBits .f32 0x00000000#32 + _ = _
  rw [Ideal.ofBits_zero_f32, zero_add]
  unfold corrH
  refine Finset.sum_congr rfl fun r _ => ?_
  rw [val_main_v22_apply, val_main_v21_apply, val_main_v20_apply, val_main_v19_apply]
  have e1 : idx_main_v20 (idx_main_v21 (idx_main_v23 (ix2 g j) r)) = ix2 j r :=
    funext fun a => Fin.ext (by match a with | ⟨0, _⟩ => rfl | ⟨1, _⟩ => rfl)
  have e2 : idx_main_v19 (idx_main_v23 (ix2 g j) r) = ix2 (gcol g j) r :=
    funext fun a => Fin.ext (by
      have hg := g.isLt; have hj := j.isLt; have hr := r.isLt
      match a with
      | ⟨0, _⟩ => show ((g.val * 1024 + j.val) * 128 + r.val) / 128 = g.val * 1024 + j.val; omega
      | ⟨1, _⟩ => show ((g.val * 1024 + j.val) * 128 + r.val) % 128 = r.val; omega)
  rw [e1, e2]
  rfl

end Cert.ReferenceIdeal.CorrRead

end
-- ==== Proof.HostGlue.lean ====
/-
  The arrays the region finds, read entry by entry.

  Before the region the host prepares six arrays from the arguments: the lifts U_x and U_h (a change of float format,
  the identity on the extended reals), the stacked lowerings [V_xᵀ ; V_hᵀ] ([256,4096]: the two transposes one under
  the other), the summed bias b_x + b_h laid as a row, and the folded coefficients dia_x - corr_x ([4,512]) and
  dia_h - corr_h ([4,1024]), the corrections computed by the same host operations as in the reference. Each is read here
  at an index in the vocabulary of the cell's specification.
-/
import proofs.«167605_j26680336843034_2_alg».proof.Proof.Gen.KernelIdeal.Frame
import proofs.«167605_j26680336843034_2_alg».proof.Proof.CorrRead
import Idealize.ShloMosaic.Lib.ValueLayout
import Idealize.ShloMosaic.Lib.StableHlo.Run

noncomputable section

open scoped BigOperators

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo Cert.LowRankCell

variable (m : (ℓ : Loc nD τ sig) → Buf (Elt Ideal) ℓ)

/-- The eleven argument arrays of core `c` as launched. -/
def argsOf (c : Dev nD) : Args where
  x := m ((c : Thread nD τ).loc main_arg0)
  h := m ((c : Thread nD τ).loc main_arg1)
  c := m ((c : Thread nD τ).loc main_arg2)
  Ux := m ((c : Thread nD τ).loc main_arg3)
  Uh := m ((c : Thread nD τ).loc main_arg4)
  Vx := m ((c : Thread nD τ).loc main_arg5)
  Vh := m ((c : Thread nD τ).loc main_arg6)
  bx := m ((c : Thread nD τ).loc main_arg7)
  bh := m ((c : Thread nD τ).loc main_arg8)
  dx := m ((c : Thread nD τ).loc main_arg9)
  dh := m ((c : Thread nD τ).loc main_arg10)

/-- The lift U_x the region finds is the argument. -/
theorem ux_at (c : Dev nD) (k : Fin 512) (r : Fin 128) :
    (V m c main_v17 : S512x128.Idx → EReal) (ix2 k r) = (argsOf m c).Ux (ix2 k r) := by
  have e : @Eq (FVec Ideal S512x128 .bf16) (V m c main_v17)
      (truncf (F := Ideal) (s := S512x128) (φ := .f32) .bf16 (m ((c : Thread nD τ).loc main_arg3)) bitsLt_bf16_f32) := by
    dsimp only [V, hostOps0]; after_results; try rfl
  rw [e]; rfl

/-- The lift U_h the region finds is the argument. -/
theorem uh_at (c : Dev nD) (k : Fin 1024) (r : Fin 128) :
    (V m c main_v18 : S1024x128.Idx → EReal) (ix2 k r) = (argsOf m c).Uh (ix2 k r) := by
  have e : @Eq (FVec Ideal S1024x128 .bf16) (V m c main_v18)
      (truncf (F := Ideal) (s := S1024x128) (φ := .f32) .bf16 (m ((c : Thread nD τ).loc main_arg4)) bitsLt_bf16_f32) := by
    dsimp only [V, hostOps0]; after_results; try rfl
  rw [e]; rfl

/-- The stacked lowerings: row `s` is column `s` of V_x for `s < 128`, column `s - 128` of V_h beyond. -/
theorem stack_at (c : Dev nD) (s : Fin 256) (n : Fin 4096) :
    (V m c main_v22 : S256x4096.Idx → EReal) (ix2 s n) = stackV (argsOf m c) s n := by
  have e : @Eq (FVec Ideal S256x4096 .bf16) (V m c main_v22)
      (truncf (F := Ideal) (s := S256x4096) (φ := .f32) .bf16 (concatenate (α := EReal) S256x4096 0
          [⟨S128x4096, transpose (s := S4096x128) (α := EReal) S128x4096 [1, 0] (m ((c : Thread nD τ).loc main_arg5)) transposes_S4096x128_S128x4096_1_0⟩,
           ⟨S128x4096, transpose (s := S4096x128) (α := EReal) S128x4096 [1, 0] (m ((c : Thread nD τ).loc main_arg6)) transposes_S4096x128_S128x4096_1_0⟩]
          concatenates_S128x4096_S128x4096_S256x4096_d0) bitsLt_bf16_f32) := by
    dsimp only [V, hostOps0]; after_results; try rfl
  rw [e, truncf_apply]
  unfold stackV
  by_cases hs : s.val < 128
  · rw [dif_pos hs]
    refine (concatenate_pair_apply_left (t := S256x4096) (s₁ := S128x4096) (s₂ := S128x4096) (0 : Fin 2) _ _
      concatenates_S128x4096_S128x4096_S256x4096_d0 (ix2 s n) rfl
      (ix2 ⟨s.val, hs⟩ n) (fun b => by match b with | ⟨0, _⟩ => rfl | ⟨1, _⟩ => rfl)).trans ?_
    exact transpose_ix2_apply _ transposes_S4096x128_S128x4096_1_0 ⟨s.val, hs⟩ n
  · rw [dif_neg hs]
    refine (concatenate_pair_apply_right (t := S256x4096) (s₁ := S128x4096) (s₂ := S128x4096) (0 : Fin 2) _ _
      concatenates_S128x4096_S128x4096_S256x4096_d0 (ix2 s n) rfl rfl
      (ix2 ⟨s.val - 128, by have := s.isLt; omega⟩ n) (fun b hb => by
        match b with
        | ⟨0, _⟩ => exact absurd rfl hb
        | ⟨1, _⟩ => rfl) (by show s.val - 128 + 128 = s.val; omega)).trans ?_
    exact transpose_ix2_apply _ transposes_S4096x128_S128x4096_1_0 ⟨s.val - 128, by have := s.isLt; omega⟩ n

/-- The summed bias, laid as one row. -/
theorem bsum_at (c : Dev nD) (n : Fin 4096) :
    (V m c main_v16 : S1x4096.Idx → EReal) (ix2 0 n) = (argsOf m c).bx (ix1 n) + (argsOf m c).bh (ix1 n) := by
  have e : @Eq (FVec Ideal S1x4096 .f32) (V m c main_v16)
      (shapeCast (s := S4096) (α := EReal) S1x4096 (addf (F := Ideal) (s := S4096) (φ := .f32) (m ((c : Thread nD τ).loc main_arg7)) (m ((c : Thread nD τ).loc main_arg8)))
        shapeCasts_S4096_S1x4096) := by
    dsimp only [V, hostOps0]; after_results; try rfl
  rw [e, shapeCast_a_1a_apply]; rfl

/-- The folded coefficient of x. -/
theorem ccx_at (c : Dev nD) (g : Fin 4) (j : Fin 512) :
    (V m c main_v7 : S4x512.Idx → EReal) (ix2 g j) = ccX (argsOf m c) g j := by
  have e : @Eq (FVec Ideal S4x512 .f32) (V m c main_v7)
      (subf (F := Ideal) (s := S4x512) (φ := .f32)
        (broadcastInDim (s := S1x512) (α := EReal) S4x512 ![0, 1] bcast_S1x512_S4x512_0_1 (m ((c : Thread nD τ).loc main_arg9)))
        (Cert.ReferenceIdeal.Read.val_main_v11 (F := Ideal) (m ((c : Thread nD τ).loc main_arg3)) (m ((c : Thread nD τ).loc main_arg5)))) := by
    dsimp only [V, hostOps0]; after_results; try rfl
  rw [e, subf_apply]
  unfold ccX
  congr 1
  · exact broadcastInDim_apply _ bcast_S1x512_S4x512_0_1 _ (ix2 g j) (ix2 0 j) (fun a => match a with
      | ⟨0, _⟩ => by show 0 = if (1 : Nat) = 1 then 0 else g.val; rw [if_pos rfl]
      | ⟨1, _⟩ => by show j.val = if (512 : Nat) = 1 then 0 else j.val; rw [if_neg (by decide)])
  · exact Cert.ReferenceIdeal.CorrRead.corrX_read (argsOf m c) g j

/-- The folded coefficient of h. -/
theorem cch_at (c : Dev nD) (g : Fin 4) (j : Fin 1024) :
    (V m c main_v14 : S4x1024.Idx → EReal) (ix2 g j) = ccH (argsOf m c) g j := by
  have e : @Eq (FVec Ideal S4x1024 .f32) (V m c main_v14)
      (subf (F := Ideal) (s := S4x1024) (φ := .f32)
        (broadcastInDim (s := S1x1024) (α := EReal) S4x1024 ![0, 1] bcast_S1x1024_S4x1024_0_1 (m ((c : Thread nD τ).loc main_arg10)))
        (Cert.ReferenceIdeal.Read.val_main_v23 (F := Ideal) (m ((c : Thread nD τ).loc main_arg4)) (m ((c : Thread nD τ).loc main_arg6)))) := by
    dsimp only [V, hostOps0]; after_results; try rfl
  rw [e, subf_apply]
  unfold ccH
  congr 1
  · exact broadcastInDim_apply _ bcast_S1x1024_S4x1024_0_1 _ (ix2 g j) (ix2 0 j) (fun a => match a with
      | ⟨0, _⟩ => by show 0 = if (1 : Nat) = 1 then 0 else g.val; rw [if_pos rfl]
      | ⟨1, _⟩ => by show j.val = if (1024 : Nat) = 1 then 0 else j.val; rw [if_neg (by decide)])
  · exact Cert.ReferenceIdeal.CorrRead.corrH_read (argsOf m c) g j

end Cert.KernelIdeal.Glue

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.BlockPay.lean ====
/-
  What the cell's body leaves in a block, entry by entry.

  The body works on a block of 256 batch rows: the rows of x, h and c, the whole lifts U_x and U_h, the stacked
  lowerings [V_xᵀ ; V_hᵀ] ([256,4096]), the summed bias ([1,4096]) and the folded coefficients dia - corr ([4,512] and
  [4,1024]). It forms the two lifted rows side by side, one product over the 256 stacked ranks, and per gate the sum
  "product + h * coefficient + bias", to which the x term is added on the first 512 columns only (the two halves are
  cut apart and put back side by side). Read at row p and column j this is `bpre` below; the two stored results are
  the gating of the four gates' values.
-/
import proofs.«167605_j26680336843034_2_alg».proof.Proof.Gen.KernelIdeal.Skeleton
import proofs.«167605_j26680336843034_2_alg».proof.Proof.LibMatmulCols
import proofs.«167605_j26680336843034_2_alg».proof.Proof.CellSpec
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.LowRankCell

/-- One gate's pre-activation over a block's operands: `low` the product, `hh` the rows of h, `bs` the summed bias,
    `cx`, `ch` the folded coefficients, `xx` the rows of x. -/
def bpre (xx : FVec Ideal S256x512 .f32) (hh : FVec Ideal S256x1024 .f32) (bs : FVec Ideal S1x4096 .f32)
    (cx : FVec Ideal S4x512 .f32) (ch : FVec Ideal S4x1024 .f32) (low : FVec Ideal S256x4096 .f32)
    (g : Fin 4) (p : Fin 256) (j : Fin 1024) : EReal :=
  if hj : j.val < 512 then
    ((low (ix2 p (gcol g j)) + hh (ix2 p j) * ch (ix2 g j)) + bs (ix2 0 (gcol g j)))
      + xx (ix2 p ⟨j.val, hj⟩) * cx (ix2 g ⟨j.val, hj⟩)
  else
    (low (ix2 p (gcol g j)) + hh (ix2 p j) * ch (ix2 g j)) + bs (ix2 0 (gcol g j))

/-- The sum "product + h * coefficient + bias" of gate `g` (offset `o = g * 1024` in the stacked columns) at `(p, j)`. -/
theorem base_at (gv o : ℕ) (g : Fin 4) (hg : g.val = gv) (ho : o = gv * 1024)
    (hh : FVec Ideal S256x1024 .f32) (bs : FVec Ideal S1x4096 .f32) (ch : FVec Ideal S4x1024 .f32)
    (low : FVec Ideal S256x4096 .f32)
    (h16 : S4x1024.Slices ![gv, 0] S1x1024) (h12 : S1x4096.Slices ![0, o] S1x1024)
    (h22 : S256x4096.Slices ![0, o] S256x1024) (p : Fin 256) (j : Fin 1024) :
    (addf (addf (extractStridedSlice S256x1024 ![0, o] low h22)
        (mulf hh (broadcastTo S256x1024 (extractStridedSlice S1x1024 ![gv, 0] ch h16) broadcasts_S1x1024_S256x1024)))
      (broadcastTo S256x1024 (extractStridedSlice S1x1024 ![0, o] bs h12) broadcasts_S1x1024_S256x1024)) (ix2 p j)
    = (low (ix2 p (gcol g j)) + hh (ix2 p j) * ch (ix2 g j)) + bs (ix2 0 (gcol g j)) := by
  rw [addf_apply, addf_apply, mulf_apply,
    slice2_axis1_apply o low h22 p j (gcol g j) (by simp only [gcol]; omega),
    broadcastTo_1b_ab_apply, broadcastTo_1b_ab_apply,
    extractStridedSlice_apply ![gv, 0] ch h16 (ix2 0 j) (ix2 g j) (fun ax => by
      match ax with
      | ⟨0, _⟩ => show g.val = gv + 0; omega
      | ⟨1, _⟩ => show j.val = 0 + j.val; omega),
    extractStridedSlice_apply ![0, o] bs h12 (ix2 0 j) (ix2 0 (gcol g j)) (fun ax => by
      match ax with
      | ⟨0, _⟩ => rfl
      | ⟨1, _⟩ => show (gcol g j).val = o + j.val; simp only [gcol]; omega)]

/-- Gate `g`'s value at `(p, j)`: on the first 512 columns the sum plus the x term, on the last 512 the sum alone. -/
theorem gate_at (gv o : ℕ) (g : Fin 4) (hg : g.val = gv) (ho : o = gv * 1024)
    (xx : FVec Ideal S256x512 .f32) (hh : FVec Ideal S256x1024 .f32) (bs : FVec Ideal S1x4096 .f32)
    (cx : FVec Ideal S4x512 .f32) (ch : FVec Ideal S4x1024 .f32) (low : FVec Ideal S256x4096 .f32)
    (h14 : S4x512.Slices ![gv, 0] S1x512) (h16 : S4x1024.Slices ![gv, 0] S1x1024)
    (h12 : S1x4096.Slices ![0, o] S1x1024) (h22 : S256x4096.Slices ![0, o] S256x1024) (p : Fin 256) (j : Fin 1024) :
    concatenate S256x1024 1
      [⟨S256x512, addf (extractStridedSlice S256x512 ![0, 0]
          (addf (addf (extractStridedSlice S256x1024 ![0, o] low h22)
            (mulf hh (broadcastTo S256x1024 (extractStridedSlice S1x1024 ![gv, 0] ch h16) broadcasts_S1x1024_S256x1024)))
            (broadcastTo S256x1024 (extractStridedSlice S1x1024 ![0, o] bs h12) broadcasts_S1x1024_S256x1024))
          slices_S256x1024_o0_0_S256x512)
          (mulf xx (broadcastTo S256x512 (extractStridedSlice S1x512 ![gv, 0] cx h14) broadcasts_S1x512_S256x512))⟩,
       ⟨S256x512, extractStridedSlice S256x512 ![0, 512]
          (addf (addf (extractStridedSlice S256x1024 ![0, o] low h22)
            (mulf hh (broadcastTo S256x1024 (extractStridedSlice S1x1024 ![gv, 0] ch h16) broadcasts_S1x1024_S256x1024)))
            (broadcastTo S256x1024 (extractStridedSlice S1x1024 ![0, o] bs h12) broadcasts_S1x1024_S256x1024))
          slices_S256x1024_o0_512_S256x512⟩]
      concatenates_S256x512_S256x512_S256x1024_d1 (ix2 p j)
    = bpre xx hh bs cx ch low g p j := by
  unfold bpre
  by_cases hj : j.val < 512
  · rw [dif_pos hj]
    refine (concatenate_pair_apply_left (t := S256x1024) (s₁ := S256x512) (s₂ := S256x512) (1 : Fin 2) _ _
      concatenates_S256x512_S256x512_S256x1024_d1 (ix2 p j) rfl
      (ix2 p ⟨j.val, hj⟩) (fun b => by match b with | ⟨0, _⟩ => rfl | ⟨1, _⟩ => rfl)).trans ?_
    rw [addf_apply, mulf_apply, slice2_axis1_apply 0 _ slices_S256x1024_o0_0_S256x512 p ⟨j.val, hj⟩ j (by simp),
      base_at gv o g hg ho hh bs ch low h16 h12 h22 p j, broadcastTo_1b_ab_apply,
      extractStridedSlice_apply ![gv, 0] cx h14 (ix2 0 ⟨j.val, hj⟩) (ix2 g ⟨j.val, hj⟩) (fun ax => by
        match ax with
        | ⟨0, _⟩ => show g.val = gv + 0; omega
        | ⟨1, _⟩ => show j.val = 0 + j.val; omega)]
  · rw [dif_neg hj]
    refine (concatenate_pair_apply_right (t := S256x1024) (s₁ := S256x512) (s₂ := S256x512) (1 : Fin 2) _ _
      concatenates_S256x512_S256x512_S256x1024_d1 (ix2 p j) rfl rfl
      (ix2 p ⟨j.val - 512, by have := j.isLt; omega⟩) (fun b hb => by
        match b with
        | ⟨0, _⟩ => rfl
        | ⟨1, _⟩ => exact absurd rfl hb) (by show j.val - 512 + 512 = j.val; omega)).trans ?_
    rw [slice2_axis1_apply 512 _ slices_S256x1024_o0_512_S256x512 p ⟨j.val - 512, by have := j.isLt; omega⟩ j
        (by show j.val = 512 + (j.val - 512); omega),
      base_at gv o g hg ho hh bs ch low h16 h12 h22 p j]

/-- The lifted row of x at `(p, s)`. -/
theorem liftx_at (v0 : FVec Ideal S256x512 .f32) (v5 : FVec Ideal S512x128 .bf16) (p : Fin 256) (s : Fin 128) :
    matmul (F := Ideal) dot_S256x512_S512x128_S256x128_1_0_0_1_n_n none (truncf .bf16 v0 bitsLt_bf16_f32)
        (shapeCast S512x128 v5 shapeCasts_S512x128_S512x128) (constant S256x128 .f32 0x00000000#32) (ix2 p s)
      = (∑ k : Fin 512, v0 (ix2 p k) * v5 (ix2 k s) : EReal) := by
  rw [shapeCast_self]
  exact Cert.Lib.MatmulCols.matmul_zero_plain (a := 256) (n := 512) (b := 128)
    dot_S256x512_S512x128_S256x128_1_0_0_1_n_n_wf none (truncf .bf16 v0 bitsLt_bf16_f32) v5 p s

/-- The lifted row of h at `(p, s)`. -/
theorem lifth_at (v1 : FVec Ideal S256x1024 .f32) (v7 : FVec Ideal S1024x128 .bf16) (p : Fin 256) (s : Fin 128) :
    matmul (F := Ideal) dot_S256x1024_S1024x128_S256x128_1_0_0_1_n_n none (truncf .bf16 v1 bitsLt_bf16_f32)
        (shapeCast S1024x128 v7 shapeCasts_S1024x128_S1024x128) (constant S256x128 .f32 0x00000000#32) (ix2 p s)
      = (∑ k : Fin 1024, v1 (ix2 p k) * v7 (ix2 k s) : EReal) := by
  rw [shapeCast_self]
  exact Cert.Lib.MatmulCols.matmul_zero_plain (a := 256) (n := 1024) (b := 128)
    dot_S256x1024_S1024x128_S256x128_1_0_0_1_n_n_wf none (truncf .bf16 v1 bitsLt_bf16_f32) v7 p s

/-- Two [256,128] arrays side by side, read at `(p, s)`. -/
theorem beside_at (l r : FVec Ideal S256x128 .bf16) (p : Fin 256) (s : Fin 256) :
    concatenate S256x256 1 [⟨S256x128, l⟩, ⟨S256x128, r⟩] concatenates_S256x128_S256x128_S256x256_d1 (ix2 p s)
      = if hs : s.val < 128 then l (ix2 p ⟨s.val, hs⟩) else r (ix2 p ⟨s.val - 128, by have := s.isLt; omega⟩) := by
  by_cases hs : s.val < 128
  · rw [dif_pos hs]
    exact concatenate_pair_apply_left (t := S256x256) (s₁ := S256x128) (s₂ := S256x128) (1 : Fin 2) l r
      concatenates_S256x128_S256x128_S256x256_d1 (ix2 p s) rfl
      (ix2 p ⟨s.val, hs⟩) (fun b => by match b with | ⟨0, _⟩ => rfl | ⟨1, _⟩ => rfl)
  · rw [dif_neg hs]
    exact concatenate_pair_apply_right (t := S256x256) (s₁ := S256x128) (s₂ := S256x128) (1 : Fin 2) l r
      concatenates_S256x128_S256x128_S256x256_d1 (ix2 p s) rfl rfl
      (ix2 p ⟨s.val - 128, by have := s.isLt; omega⟩) (fun b hb => by
        match b with
        | ⟨0, _⟩ => rfl
        | ⟨1, _⟩ => exact absurd rfl hb) (by show s.val - 128 + 128 = s.val; omega)

/-- The two lifted rows side by side and the one product over the 256 stacked ranks, at `(p, n)`. -/
theorem pay4_at (v0 : FVec Ideal S256x512 .f32) (v1 : FVec Ideal S256x1024 .f32) (v5 : FVec Ideal S512x128 .bf16)
    (v7 : FVec Ideal S1024x128 .bf16) (v9 : FVec Ideal S256x4096 .bf16) (p : Fin 256) (n : Fin 4096) :
    k0_pay4 (F := Ideal) v0 v1 v5 v7 v9 (ix2 p n)
      = ∑ s : Fin 256, (if hs : s.val < 128 then ∑ k : Fin 512, v0 (ix2 p k) * v5 (ix2 k ⟨s.val, hs⟩)
          else ∑ k : Fin 1024, v1 (ix2 p k) * v7 (ix2 k ⟨s.val - 128, by have := s.isLt; omega⟩)) * v9 (ix2 s n) := by
  unfold k0_pay4
  rw [shapeCast_self v9]
  refine (Cert.Lib.MatmulCols.matmul_zero_plain (a := 256) (n := 256) (b := 4096)
    dot_S256x256_S256x4096_S256x4096_1_0_0_1_n_n_wf none
    (concatenate S256x256 1
      [⟨S256x128, truncf .bf16 (matmul dot_S256x512_S512x128_S256x128_1_0_0_1_n_n none (truncf .bf16 v0 bitsLt_bf16_f32)
          (shapeCast S512x128 v5 shapeCasts_S512x128_S512x128) (constant S256x128 .f32 0x00000000#32)) bitsLt_bf16_f32⟩,
       ⟨S256x128, truncf .bf16 (matmul dot_S256x1024_S1024x128_S256x128_1_0_0_1_n_n none (truncf .bf16 v1 bitsLt_bf16_f32)
          (shapeCast S1024x128 v7 shapeCasts_S1024x128_S1024x128) (constant S256x128 .f32 0x00000000#32)) bitsLt_bf16_f32⟩]
      concatenates_S256x128_S256x128_S256x256_d1) v9 p n).trans ?_
  refine Finset.sum_congr rfl fun s _ => ?_
  rw [beside_at]
  by_cases hs : s.val < 128
  · rw [dif_pos hs, dif_pos hs, truncf_apply, liftx_at]
  · rw [dif_neg hs, dif_neg hs, truncf_apply, lifth_at]

/-- Gate 0's value is `bpre … 0`. -/
theorem pay5_at (v0 : FVec Ideal S256x512 .f32) (v1 : FVec Ideal S256x1024 .f32) (v5 : FVec Ideal S512x128 .bf16)
    (v7 : FVec Ideal S1024x128 .bf16) (v9 : FVec Ideal S256x4096 .bf16) (v11 : FVec Ideal S1x4096 .f32)
    (v13 : FVec Ideal S4x512 .f32) (v15 : FVec Ideal S4x1024 .f32) (p : Fin 256) (j : Fin 1024) :
    k0_pay5 (F := Ideal) v0 v1 v5 v7 v9 v11 v13 v15 (ix2 p j) = bpre v0 v1 v11 v13 v15 (k0_pay4 v0 v1 v5 v7 v9) 0 p j := by
  unfold k0_pay5 k0_pay1 k0_pay2 k0_pay3
  simp only [shapeCast_self]
  exact gate_at 0 0 0 rfl rfl v0 v1 v11 v13 v15 (k0_pay4 v0 v1 v5 v7 v9) _ _ _ _ p j

/-- The new cell state at `(p, j)`: the gating of gates 1, 0 (its value `v37` handed in) and 3. -/
theorem pay6_at (v0 : FVec Ideal S256x512 .f32) (v1 : FVec Ideal S256x1024 .f32) (v2 : FVec Ideal S256x1024 .f32)
    (v12 : FVec Ideal S1x4096 .f32) (v14 : FVec Ideal S4x512 .f32) (v16 : FVec Ideal S4x1024 .f32)
    (v22 : FVec Ideal S256x4096 .f32) (v37 : FVec Ideal S256x1024 .f32) (p : Fin 256) (j : Fin 1024) :
    k0_pay6 (F := Ideal) v0 v1 v2 v12 v14 v16 v22 v37 (ix2 p j)
      = Ideal.logistic (bpre v0 v1 v12 v14 v16 v22 1 p j) * v2 (ix2 p j)
        + Ideal.logistic (v37 (ix2 p j)) * Ideal.tanh (bpre v0 v1 v12 v14 v16 v22 3 p j) := by
  unfold k0_pay6
  show Ideal.logistic (concatenate S256x1024 1 _ _ (ix2 p j)) * v2 (ix2 p j)
    + Ideal.logistic (v37 (ix2 p j)) * Ideal.tanh (concatenate S256x1024 1 _ _ (ix2 p j)) = _
  rw [gate_at 1 1024 1 rfl rfl v0 v1 v12 v14 v16 v22 _ _ _ _ p j, gate_at 3 3072 3 rfl rfl v0 v1 v12 v14 v16 v22 _ _ _ _ p j]

/-- The new hidden state at `(p, j)`: gate 2's logistic times the tanh of the new cell state. -/
theorem pay7_at (v0 : FVec Ideal S256x512 .f32) (v1 : FVec Ideal S256x1024 .f32) (v2 : FVec Ideal S256x1024 .f32)
    (v12 : FVec Ideal S1x4096 .f32) (v14 : FVec Ideal S4x512 .f32) (v16 : FVec Ideal S4x1024 .f32)
    (v22 : FVec Ideal S256x4096 .f32) (v37 : FVec Ideal S256x1024 .f32) (p : Fin 256) (j : Fin 1024) :
    k0_pay7 (F := Ideal) v0 v1 v2 v12 v14 v16 v22 v37 (ix2 p j)
      = Ideal.logistic (bpre v0 v1 v12 v14 v16 v22 2 p j) * Ideal.tanh (k0_pay6 v0 v1 v2 v12 v14 v16 v22 v37 (ix2 p j)) := by
  unfold k0_pay7
  show Ideal.logistic (concatenate S256x1024 1 _ _ (ix2 p j)) * Ideal.tanh (k0_pay6 v0 v1 v2 v12 v14 v16 v22 v37 (ix2 p j)) = _
  rw [gate_at 2 2048 2 rfl rfl v0 v1 v12 v14 v16 v22 _ _ _ _ p j]

end Cert.KernelIdeal.Block

end
-- ==== Proof.KernelCover.lean ====
/-
  The grid's blocks: where each window's block sits in its array, and that the output blocks cover the result arrays.

  The grid has 16 points. The windows of x, h, c and of the two results move with the point: point t's block is rows
  t * 256 … t * 256 + 255 of the array, all columns, so row p and column k of the block are row t * 256 + p and column k of
  the array. The other six windows take their whole array as one block at every point, so a block index is the array index
  itself. Every row i of a result array lies in the block of point i / 256, and every point writes its block back, so the
  written blocks cover the result arrays.
-/
import proofs.«167605_j26680336843034_2_alg».proof.Proof.Gen.KernelIdeal.Value
import Idealize.ShloMosaic.Lib.ValueIdx

noncomputable section

namespace Cert.KernelIdeal.Cover

open Cert.KernelIdeal Cert.KernelIdeal.Gen Idealize.ShloMosaic Idealize.ShloMosaic.TcCoe Idealize.SL.Sem
  Idealize.ShloMosaic.ValueIdx

variable {F : FTy → Type} [FloatOps F]

/-- A grid point is below 16. -/
theorem t_lt (t : Fin cfg0.N) : t.val < 16 := by
  have h : cfg0.N = 16 := N_0
  have := t.isLt
  omega

/-- The printed index maps of the windows that move with the point, decided over the grid: block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The printed index maps of the windows that take their whole array, decided over the grid: block (0, 0). -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Where a block index sits in the array -/

/-- Window 0: row p, column k of point t's block is row t * 256 + p, column k of the array. -/
theorem emb0 (t : Fin cfg0.N) (p : Fin 256) (k : Fin 512) :
    ((cfg0.win 0).blk t).view.emb (ix2 p k : S256x512.Idx)
      = (ix2 (⟨t.val * 256 + p.val, by have := t_lt t; have := p.isLt; omega⟩ : Fin 4096) k : S4096x512.Idx) := by
  obtain ⟨r0a, r0b, r1a, r1b, r2a, r2b, r9a, r9b, r10a, r10b⟩ := idx_rows t
  funext a; apply Fin.ext
  match a with
  | ⟨0, _⟩ => show win0_0.index t (0 : Fin 2) * 256 + 1 * p.val = t.val * 256 + p.val; omega
  | ⟨1, _⟩ => show win0_0.index t (1 : Fin 2) * 512 + 1 * k.val = k.val; omega

/-- Window 1: row p, column k of point t's block is row t * 256 + p, column k of the array. -/
theorem emb1 (t : Fin cfg0.N) (p : Fin 256) (k : Fin 1024) :
    ((cfg0.win 1).blk t).view.emb (ix2 p k : S256x1024.Idx)
      = (ix2 (⟨t.val * 256 + p.val, by have := t_lt t; have := p.isLt; omega⟩ : Fin 4096) k : S4096x1024.Idx) := by
  obtain ⟨r0a, r0b, r1a, r1b, r2a, r2b, r9a, r9b, r10a, r10b⟩ := idx_rows t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

/-- Window 2: row p, column k of point t's block is row t * 256 + p, column k of the array. -/
theorem emb2 (t : Fin cfg0.N) (p : Fin 256) (k : Fin 1024) :
    ((cfg0.win 2).blk t).view.emb (ix2 p k : S256x1024.Idx)
      = (ix2 (⟨t.val * 256 + p.val, by have := t_lt t; have := p.isLt; omega⟩ : Fin 4096) k : S4096x1024.Idx) := by
  obtain ⟨r0a, r0b, r1a, r1b, r2a, r2b, r9a, r9b, r10a, r10b⟩ := idx_rows t
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

/-- Window 9: row p, column k of point t's block is row t * 256 + p, column k of the array. -/
theorem emb9 (t : Fin cfg0.N) (p : Fin 256) (k : Fin 1024) :
    ((cfg0.win 9).blk t).view.emb (ix2 p k : S256x1024.Idx)
      = (ix2 (⟨t.val * 256 + p.val, by have := t_lt t; have := p.isLt; omega⟩ : Fin 4096) k : S4096x1024.Idx) := by
  obtain ⟨r0a, r0b, r1a, r1b, r2a, r2b, r9a, r9b, r10a, r10b⟩ := idx_rows t
  funext a; apply Fin.ext
  match a with
  | ⟨0, _⟩ => show win0_9.index t (0 : Fin 2) * 256 + 1 * p.val = t.val * 256 + p.val; omega
  | ⟨1, _⟩ => show win0_9.index t (1 : Fin 2) * 1024 + 1 * k.val = k.val; omega

/-- Window 10: row p, column k of point t's block is row t * 256 + p, column k of the array. -/
theorem emb10 (t : Fin cfg0.N) (p : Fin 256) (k : Fin 1024) :
    ((cfg0.win 10).blk t).view.emb (ix2 p k : S256x1024.Idx)
      = (ix2 (⟨t.val * 256 + p.val, by have := t_lt t; have := p.isLt; omega⟩ : Fin 4096) k : S4096x1024.Idx) := by
  obtain ⟨r0a, r0b, r1a, r1b, r2a, r2b, r9a, r9b, r10a, r10b⟩ := idx_rows t
  funext a; apply Fin.ext
  match a with
  | ⟨0, _⟩ => show win0_10.index t (0 : Fin 2) * 256 + 1 * p.val = t.val * 256 + p.val; omega
  | ⟨1, _⟩ => show win0_10.index t (1 : Fin 2) * 1024 + 1 * k.val = k.val; omega

/-- Window 3: the block is the whole array, a block index is the array index. -/
theorem emb3 (t : Fin cfg0.N) (y : S512x128.Idx) : ((cfg0.win 3).blk t).view.emb y = y := by
  obtain ⟨z3a, z3b, z4a, z4b, z5a, z5b, z6a, z6b, z7a, z7b, z8a, z8b⟩ := idx_whole t
  funext a; apply Fin.ext
  match a with
  | ⟨0, _⟩ => show win0_3.index t (0 : Fin 2) * 512 + 1 * (y 0).val = (y 0).val; omega
  | ⟨1, _⟩ => show win0_3.index t (1 : Fin 2) * 128 + 1 * (y 1).val = (y 1).val; omega

/-- Window 4: the block is the whole array, a block index is the array index. -/
theorem emb4 (t : Fin cfg0.N) (y : S1024x128.Idx) : ((cfg0.win 4).blk t).view.emb y = y := by
  obtain ⟨z3a, z3b, z4a, z4b, z5a, z5b, z6a, z6b, z7a, z7b, z8a, z8b⟩ := idx_whole t
  funext a; apply Fin.ext
  match a with
  | ⟨0, _⟩ => show win0_4.index t (0 : Fin 2) * 1024 + 1 * (y 0).val = (y 0).val; omega
  | ⟨1, _⟩ => show win0_4.index t (1 : Fin 2) * 128 + 1 * (y 1).val = (y 1).val; omega

/-- Window 5: the block is the whole array, a block index is the array index. -/
theorem emb5 (t : Fin cfg0.N) (y : S256x4096.Idx) : ((cfg0.win 5).blk t).view.emb y = y := by
  obtain ⟨z3a, z3b, z4a, z4b, z5a, z5b, z6a, z6b, z7a, z7b, z8a, z8b⟩ := idx_whole t
  funext a; apply Fin.ext
  match a with
  | ⟨0, _⟩ => show win0_5.index t (0 : Fin 2) * 256 + 1 * (y 0).val = (y 0).val; omega
  | ⟨1, _⟩ => show win0_5.index t (1 : Fin 2) * 4096 + 1 * (y 1).val = (y 1).val; omega

/-- Window 6: the block is the whole array, a block index is the array index. -/
theorem emb6 (t : Fin cfg0.N) (y : S1x4096.Idx) : ((cfg0.win 6).blk t).view.emb y = y := by
  obtain ⟨z3a, z3b, z4a, z4b, z5a, z5b, z6a, z6b, z7a, z7b, z8a, z8b⟩ := idx_whole t
  funext a; apply Fin.ext
  match a with
  | ⟨0, _⟩ => show win0_6.index t (0 : Fin 2) * 1 + 1 * (y 0).val = (y 0).val; omega
  | ⟨1, _⟩ => show win0_6.index t (1 : Fin 2) * 4096 + 1 * (y 1).val = (y 1).val; omega

/-- Window 7: the block is the whole array, a block index is the array index. -/
theorem emb7 (t : Fin cfg0.N) (y : S4x512.Idx) : ((cfg0.win 7).blk t).view.emb y = y := by
  obtain ⟨z3a, z3b, z4a, z4b, z5a, z5b, z6a, z6b, z7a, z7b, z8a, z8b⟩ := idx_whole t
  funext a; apply Fin.ext
  match a with
  | ⟨0, _⟩ => show win0_7.index t (0 : Fin 2) * 4 + 1 * (y 0).val = (y 0).val; omega
  | ⟨1, _⟩ => show win0_7.index t (1 : Fin 2) * 512 + 1 * (y 1).val = (y 1).val; omega

/-- Window 8: the block is the whole array, a block index is the array index. -/
theorem emb8 (t : Fin cfg0.N) (y : S4x1024.Idx) : ((cfg0.win 8).blk t).view.emb y = y := by
  obtain ⟨z3a, z3b, z4a, z4b, z5a, z5b, z6a, z6b, z7a, z7b, z8a, z8b⟩ := idx_whole t
  funext a; apply Fin.ext
  match a with
  | ⟨0, _⟩ => show win0_8.index t (0 : Fin 2) * 4 + 1 * (y 0).val = (y 0).val; omega
  | ⟨1, _⟩ => show win0_8.index t (1 : Fin 2) * 1024 + 1 * (y 1).val = (y 1).val; omega

/-! ## The output blocks cover the result arrays -/

/-- An index of the array is in point t's block of window 9 iff each coordinate is in the block's range on its axis. -/
theorem mem_blk9 (t : Fin cfg0.N) (i : S4096x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v23_0).slice (win0_9.rect t)).set ↔ _
  rw [View.set_slice_whole, Rect.mem_set_unit]
  exact Iff.rfl

/-- Every index of window 9's array is in the block of a point that writes back: row i is in the block of point i / 256. -/
theorem cover9 : ∀ i : S4096x1024.Idx, ∃ t : Fin cfg0.N, (cfg0.win 9).flush t = true ∧ i ∈ ((cfg0.win 9).blk t).view.set := by
  intro i
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by have h : cfg0.N = 16 := N_0; omega⟩, rfl⟩
  obtain ⟨r0a, r0b, r1a, r1b, r2a, r2b, r9a, r9b, r10a, r10b⟩ := idx_rows t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 1024 ≤ (i 1).val ∧ (i 1).val < win0_9.index t (1 : Fin 2) * 1024 + 1024
    omega

/-- An index of the array is in point t's block of window 10 iff each coordinate is in the block's range on its axis. -/
theorem mem_blk10 (t : Fin cfg0.N) (i : S4096x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v23_1).slice (win0_10.rect t)).set ↔ _
  rw [View.set_slice_whole, Rect.mem_set_unit]
  exact Iff.rfl

/-- Every index of window 10's array is in the block of a point that writes back: row i is in the block of point i / 256. -/
theorem cover10 : ∀ i : S4096x1024.Idx, ∃ t : Fin cfg0.N, (cfg0.win 10).flush t = true ∧ i ∈ ((cfg0.win 10).blk t).view.set := by
  intro i
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by have h : cfg0.N = 16 := N_0; omega⟩, rfl⟩
  obtain ⟨r0a, r0b, r1a, r1b, r2a, r2b, r9a, r9b, r10a, r10b⟩ := idx_rows t
  refine ⟨t, flush0_10 t, ?_⟩
  rw [mem_blk10]
  intro a
  match a with
  | ⟨0, _⟩ =>
    show win0_10.index t (0 : Fin 2) * 256 ≤ (i 0).val ∧ (i 0).val < win0_10.index t (0 : Fin 2) * 256 + 256
    omega
  | ⟨1, _⟩ =>
    show win0_10.index t (1 : Fin 2) * 1024 ≤ (i 1).val ∧ (i 1).val < win0_10.index t (1 : Fin 2) * 1024 + 1024
    omega

end Cert.KernelIdeal.Cover

end
-- ==== Proof.KernelSide.lean ====
/-
  The kernel's two result arrays, entry by entry.

  The grid has 16 points; point t works on batch rows t*256 … t*256+255: it fetches those rows of x, h and c, finds
  the six prepared arrays whole, and writes back the same rows of the two results. Its block of the new hidden state
  at (p, j) is the gating of the four gates' values over the block's operands; read through where each block sits in
  its array, those values are the fused arrangement `preK` of the arguments at row t*256+p. The 16 blocks of each
  result tile the array, so the arrays end at `hK` and `cK` of the arguments.
-/
import proofs.«167605_j26680336843034_2_alg».proof.Proof.Gen.KernelIdeal.Value
import proofs.«167605_j26680336843034_2_alg».proof.Proof.BlockPay
import proofs.«167605_j26680336843034_2_alg».proof.Proof.HostGlue
import proofs.«167605_j26680336843034_2_alg».proof.Proof.KernelCover

noncomputable section

open scoped BigOperators

namespace Cert.KernelIdeal.KValue

open Cert.KernelIdeal Cert.KernelIdeal.Gen Cert.KernelIdeal.Value Cert.KernelIdeal.Block Cert.KernelIdeal.Glue
open Cert.KernelIdeal.Cover Idealize.ShloMosaic Idealize.ShloMosaic.TcCoe Idealize.SL.Sem
open Idealize.ShloMosaic.ValueIdx Cert.LowRankCell
open Idealize.ShloMosaic.Pipeline (Dat)

/-- The body's loads and stores go through the whole block: offsets zero. -/
theorem hz : (![0, 0] : Fin 2 → Nat) = fun _ => 0 := funext fun a => by fin_cases a <;> rfl

/-! ## What the body leaves in the two output blocks, over the block's operands -/

/-- The new hidden state's block at `(p, j)`. -/
theorem out9_at (x0 : FVec Ideal S256x512 .f32) (x1 x2 : FVec Ideal S256x1024 .f32) (x3 : FVec Ideal S512x128 .bf16)
    (x4 : FVec Ideal S1024x128 .bf16) (x5 : FVec Ideal S256x4096 .bf16) (x6 : FVec Ideal S1x4096 .f32)
    (x7 : FVec Ideal S4x512 .f32) (x8 : FVec Ideal S4x1024 .f32) (p : Fin 256) (j : Fin 1024) :
    out0_9 (F := Ideal) x0 x1 x2 x3 x4 x5 x6 x7 x8 (ix2 p j)
      = hNext (fun g => bpre x0 x1 x6 x7 x8 (k0_pay4 x0 x1 x3 x4 x5) g p j) (x2 (ix2 p j)) := by
  unfold out0_9
  rw [View.canon_unit_zero hz]
  simp only [View.ld_unit_zero (S := S256x512) hz, View.ld_unit_zero (S := S256x1024) hz,
    View.ld_unit_zero (S := S512x128) hz, View.ld_unit_zero (S := S1024x128) hz, View.ld_unit_zero (S := S256x4096) hz,
    View.ld_unit_zero (S := S1x4096) hz, View.ld_unit_zero (S := S4x512) hz, View.ld_unit_zero (S := S4x1024) hz]
  rw [pay7_at, pay6_at, pay5_at]
  unfold k0_pay1 k0_pay2 k0_pay3
  simp only [shapeCast_self]
  rfl

/-- The new cell state's block at `(p, j)`. -/
theorem out10_at (x0 : FVec Ideal S256x512 .f32) (x1 x2 : FVec Ideal S256x1024 .f32) (x3 : FVec Ideal S512x128 .bf16)
    (x4 : FVec Ideal S1024x128 .bf16) (x5 : FVec Ideal S256x4096 .bf16) (x6 : FVec Ideal S1x4096 .f32)
    (x7 : FVec Ideal S4x512 .f32) (x8 : FVec Ideal S4x1024 .f32) (p : Fin 256) (j : Fin 1024) :
    out0_10 (F := Ideal) x0 x1 x2 x3 x4 x5 x6 x7 x8 (ix2 p j)
      = cNext (fun g => bpre x0 x1 x6 x7 x8 (k0_pay4 x0 x1 x3 x4 x5) g p j) (x2 (ix2 p j)) := by
  unfold out0_10
  rw [View.canon_unit_zero hz]
  simp only [View.ld_unit_zero (S := S256x512) hz, View.ld_unit_zero (S := S256x1024) hz,
    View.ld_unit_zero (S := S512x128) hz, View.ld_unit_zero (S := S1024x128) hz, View.ld_unit_zero (S := S256x4096) hz,
    View.ld_unit_zero (S := S1x4096) hz, View.ld_unit_zero (S := S4x512) hz, View.ld_unit_zero (S := S4x1024) hz]
  rw [pay6_at, pay5_at]
  unfold k0_pay1 k0_pay2 k0_pay3
  simp only [shapeCast_self]
  rfl

variable (m : (ℓ : Loc nD τ sig) → Buf (Elt Ideal) ℓ) (ρ : Dev nD → PrngReg)

/-! ## The blocks of point `t`, read off the arrays the region finds -/

/-- Batch row `t * 256 + p`: row `p` of point `t`'s block. -/
def row (t : Fin cfg0.N) (p : Fin 256) : Fin 4096 := ⟨t.val * 256 + p.val, by have := t_lt t; have := p.isLt; omega⟩

theorem x_blk (c : Dev nD) (t : Fin cfg0.N) (p : Fin 256) (k : Fin 512) :
    iblk m c 0 t (ix2 p k) = (argsOf m c).x (ix2 (row t p) k) := by
  unfold iblk
  show V m c main_arg0 (((cfg0.win 0).blk t).view.emb (ix2 p k)) = _
  rw [emb0 t p k, V_main_arg0]; rfl

theorem h_blk (c : Dev nD) (t : Fin cfg0.N) (p : Fin 256) (k : Fin 1024) :
    iblk m c 1 t (ix2 p k) = (argsOf m c).h (ix2 (row t p) k) := by
  unfold iblk
  show V m c main_arg1 (((cfg0.win 1).blk t).view.emb (ix2 p k)) = _
  rw [emb1 t p k, V_main_arg1]; rfl

theorem c_blk (c : Dev nD) (t : Fin cfg0.N) (p : Fin 256) (k : Fin 1024) :
    iblk m c 2 t (ix2 p k) = (argsOf m c).c (ix2 (row t p) k) := by
  unfold iblk
  show V m c main_arg2 (((cfg0.win 2).blk t).view.emb (ix2 p k)) = _
  rw [emb2 t p k, V_main_arg2]; rfl

theorem ux_blk (c : Dev nD) (t : Fin cfg0.N) (k : Fin 512) (r : Fin 128) :
    iblk m c 3 t (ix2 k r) = (argsOf m c).Ux (ix2 k r) := by
  unfold iblk
  show V m c main_v17 (((cfg0.win 3).blk t).view.emb (ix2 k r)) = _
  rw [emb3 t (ix2 k r)]; exact ux_at m c k r

theorem uh_blk (c : Dev nD) (t : Fin cfg0.N) (k : Fin 1024) (r : Fin 128) :
    iblk m c 4 t (ix2 k r) = (argsOf m c).Uh (ix2 k r) := by
  unfold iblk
  show V m c main_v18 (((cfg0.win 4).blk t).view.emb (ix2 k r)) = _
  rw [emb4 t (ix2 k r)]; exact uh_at m c k r

theorem stack_blk (c : Dev nD) (t : Fin cfg0.N) (s : Fin 256) (n : Fin 4096) :
    iblk m c 5 t (ix2 s n) = stackV (argsOf m c) s n := by
  unfold iblk
  show V m c main_v22 (((cfg0.win 5).blk t).view.emb (ix2 s n)) = _
  rw [emb5 t (ix2 s n)]; exact stack_at m c s n

theorem bsum_blk (c : Dev nD) (t : Fin cfg0.N) (n : Fin 4096) :
    iblk m c 6 t (ix2 0 n) = (argsOf m c).bx (ix1 n) + (argsOf m c).bh (ix1 n) := by
  unfold iblk
  show V m c main_v16 (((cfg0.win 6).blk t).view.emb (ix2 0 n)) = _
  rw [emb6 t (ix2 0 n)]; exact bsum_at m c n

theorem ccx_blk (c : Dev nD) (t : Fin cfg0.N) (g : Fin 4) (j : Fin 512) :
    iblk m c 7 t (ix2 g j) = ccX (argsOf m c) g j := by
  unfold iblk
  show V m c main_v7 (((cfg0.win 7).blk t).view.emb (ix2 g j)) = _
  rw [emb7 t (ix2 g j)]; exact ccx_at m c g j

theorem cch_blk (c : Dev nD) (t : Fin cfg0.N) (g : Fin 4) (j : Fin 1024) :
    iblk m c 8 t (ix2 g j) = ccH (argsOf m c) g j := by
  unfold iblk
  show V m c main_v14 (((cfg0.win 8).blk t).view.emb (ix2 g j)) = _
  rw [emb8 t (ix2 g j)]; exact cch_at m c g j

/-- The product over the 256 stacked ranks, for block operands that read the arguments at row `b`. -/
theorem low_of (x0 : FVec Ideal S256x512 .f32) (x1 : FVec Ideal S256x1024 .f32) (x3 : FVec Ideal S512x128 .bf16)
    (x4 : FVec Ideal S1024x128 .bf16) (x5 : FVec Ideal S256x4096 .bf16) (A : Args) (b : Fin 4096) (p : Fin 256)
    (n : Fin 4096) (hx : ∀ k, x0 (ix2 p k) = A.x (ix2 b k)) (hh : ∀ k, x1 (ix2 p k) = A.h (ix2 b k))
    (hux : ∀ k r, x3 (ix2 k r) = A.Ux (ix2 k r)) (huh : ∀ k r, x4 (ix2 k r) = A.Uh (ix2 k r))
    (hst : ∀ s, x5 (ix2 s n) = stackV A s n) :
    k0_pay4 (F := Ideal) x0 x1 x3 x4 x5 (ix2 p n) = lowK A b n := by
  rw [pay4_at]
  unfold lowK
  refine Finset.sum_congr rfl fun s _ => ?_
  rw [hst s]
  congr 1
  unfold liftXH
  by_cases hs : s.val < 128
  · rw [dif_pos hs, dif_pos hs]
    unfold liftX
    exact Finset.sum_congr rfl fun k _ => by rw [hx k, hux k ⟨s.val, hs⟩]
  · rw [dif_neg hs, dif_neg hs]
    unfold liftH
    exact Finset.sum_congr rfl fun k _ => by rw [hh k, huh k _]

/-- A gate's value, for block operands that read the arguments at row `b`. -/
theorem bpre_of (x0 : FVec Ideal S256x512 .f32) (x1 : FVec Ideal S256x1024 .f32) (x6 : FVec Ideal S1x4096 .f32)
    (x7 : FVec Ideal S4x512 .f32) (x8 : FVec Ideal S4x1024 .f32) (low : FVec Ideal S256x4096 .f32) (A : Args)
    (b : Fin 4096) (g : Fin 4) (p : Fin 256) (j : Fin 1024)
    (hlow : low (ix2 p (gcol g j)) = lowK A b (gcol g j)) (hh : x1 (ix2 p j) = A.h (ix2 b j))
    (hch : x8 (ix2 g j) = ccH A g j)
    (hbs : x6 (ix2 0 (gcol g j)) = A.bx (ix1 (gcol g j)) + A.bh (ix1 (gcol g j)))
    (hx : ∀ hj : j.val < 512, x0 (ix2 p ⟨j.val, hj⟩) = A.x (ix2 b ⟨j.val, hj⟩))
    (hcx : ∀ hj : j.val < 512, x7 (ix2 g ⟨j.val, hj⟩) = ccX A g ⟨j.val, hj⟩) :
    bpre x0 x1 x6 x7 x8 low g p j = preK A g b j := by
  unfold bpre preK
  by_cases hj : j.val < 512
  · rw [dif_pos hj, dif_pos hj, hlow, hh, hch, hbs, hx hj, hcx hj]
  · rw [dif_neg hj, dif_neg hj, hlow, hh, hch, hbs]

/-- The block's product over the 256 stacked ranks is the arguments' at the block's row. -/
theorem low_blk (c : Dev nD) (t : Fin cfg0.N) (p : Fin 256) (n : Fin 4096) :
    k0_pay4 (F := Ideal) (iblk m c 0 t) (iblk m c 1 t) (iblk m c 3 t) (iblk m c 4 t) (iblk m c 5 t) (ix2 p n)
      = lowK (argsOf m c) (row t p) n :=
  low_of (iblk m c 0 t) (iblk m c 1 t) (iblk m c 3 t) (iblk m c 4 t) (iblk m c 5 t) (argsOf m c) (row t p) p n
    (fun k => x_blk m c t p k) (fun k => h_blk m c t p k) (fun k r => ux_blk m c t k r) (fun k r => uh_blk m c t k r)
    (fun s => stack_blk m c t s n)

/-- A gate's value over point `t`'s blocks is the fused arrangement of the arguments at the block's row. -/
theorem bpre_blk (c : Dev nD) (t : Fin cfg0.N) (g : Fin 4) (p : Fin 256) (j : Fin 1024) :
    bpre (iblk m c 0 t) (iblk m c 1 t) (iblk m c 6 t) (iblk m c 7 t) (iblk m c 8 t)
        (k0_pay4 (F := Ideal) (iblk m c 0 t) (iblk m c 1 t) (iblk m c 3 t) (iblk m c 4 t) (iblk m c 5 t)) g p j
      = preK (argsOf m c) g (row t p) j :=
  bpre_of (iblk m c 0 t) (iblk m c 1 t) (iblk m c 6 t) (iblk m c 7 t) (iblk m c 8 t)
    (k0_pay4 (F := Ideal) (iblk m c 0 t) (iblk m c 1 t) (iblk m c 3 t) (iblk m c 4 t) (iblk m c 5 t)) (argsOf m c)
    (row t p) g p j (low_blk m c t p (gcol g j)) (h_blk m c t p j) (cch_blk m c t g j) (bsum_blk m c t (gcol g j))
    (fun hj => x_blk m c t p ⟨j.val, hj⟩) (fun hj => ccx_blk m c t g ⟨j.val, hj⟩)

/-! ## What each point writes back, and the arrays after the run -/

/-- Point `t` writes back block `t` of `hK`. -/
theorem flushed9_eq (c : Dev nD) (t : Fin cfg0.N) :
    (dats m 0 c).flushed 9 t = ((cfg0.win 9).blk t).view.read (Elt Ideal) (hK (argsOf m c)) := by
  rw [flushed9]
  funext y
  obtain ⟨p, j, rfl⟩ : ∃ (p : Fin 256) (j : Fin 1024), y = ix2 p j := ⟨y 0, y 1, eq_ix2 y⟩
  show out0_9 (F := Ideal) (iblk m c 0 t) (iblk m c 1 t) (iblk m c 2 t) (iblk m c 3 t) (iblk m c 4 t) (iblk m c 5 t)
      (iblk m c 6 t) (iblk m c 7 t) (iblk m c 8 t) (ix2 p j) = hK (argsOf m c) (((cfg0.win 9).blk t).view.emb (ix2 p j))
  refine (out9_at (iblk m c 0 t) (iblk m c 1 t) (iblk m c 2 t) (iblk m c 3 t) (iblk m c 4 t) (iblk m c 5 t)
      (iblk m c 6 t) (iblk m c 7 t) (iblk m c 8 t) p j).trans ?_
  rw [emb9 t p j]
  show hNext _ _ = hNext (fun g => preK (argsOf m c) g (row t p) j) ((argsOf m c).c (ix2 (row t p) j))
  rw [c_blk m c t p j]
  exact congrArg (fun f => hNext f _) (funext fun g => bpre_blk m c t g p j)

/-- Point `t` writes back block `t` of `cK`. -/
theorem flushed10_eq (c : Dev nD) (t : Fin cfg0.N) :
    (dats m 0 c).flushed 10 t = ((cfg0.win 10).blk t).view.read (Elt Ideal) (cK (argsOf m c)) := by
  rw [flushed10]
  funext y
  obtain ⟨p, j, rfl⟩ : ∃ (p : Fin 256) (j : Fin 1024), y = ix2 p j := ⟨y 0, y 1, eq_ix2 y⟩
  show out0_10 (F := Ideal) (iblk m c 0 t) (iblk m c 1 t) (iblk m c 2 t) (iblk m c 3 t) (iblk m c 4 t) (iblk m c 5 t)
      (iblk m c 6 t) (iblk m c 7 t) (iblk m c 8 t) (ix2 p j) = cK (argsOf m c) (((cfg0.win 10).blk t).view.emb (ix2 p j))
  refine (out10_at (iblk m c 0 t) (iblk m c 1 t) (iblk m c 2 t) (iblk m c 3 t) (iblk m c 4 t) (iblk m c 5 t)
      (iblk m c 6 t) (iblk m c 7 t) (iblk m c 8 t) p j).trans ?_
  rw [emb10 t p j]
  show cNext _ _ = cNext (fun g => preK (argsOf m c) g (row t p) j) ((argsOf m c).c (ix2 (row t p) j))
  rw [c_blk m c t p j]
  exact congrArg (fun f => cNext f _) (funext fun g => bpre_blk m c t g p j)

/-- The new hidden state's array after the run. -/
theorem final9 (c : Dev nD) : (dats m 0 c).arrAt 9 cfg0.N = hK (argsOf m c) :=
  (dats m 0 c).arrAt_eq_of_cover 9 (hK (argsOf m c)) (fun t _ => flushed9_eq m c t) cover9

/-- The new cell state's array after the run. -/
theorem final10 (c : Dev nD) : (dats m 0 c).arrAt 10 cfg0.N = cK (argsOf m c) :=
  (dats m 0 c).arrAt_eq_of_cover 10 (cK (argsOf m c)) (fun t _ => flushed10_eq m c t) cover10

/-- Every weakly fair execution of the kernel's program terminates with the two results at `hK` and `cK` of the
    arguments, the arguments unchanged. -/
theorem run : θ_run defs (onTc (τ := τ) (main (F := Ideal))) ⟨m, fun _ => 0, ρ⟩ fun r => ∀ c : Dev nD,
      r.2.mem ((c : Thread nD τ).loc main_v23_0) = hK (argsOf m c)
      ∧ r.2.mem ((c : Thread nD τ).loc main_v23_1) = cK (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final9 m c), (h c).2.1.trans (final10 m c), (h c).2.2⟩)
    (run_blocks m ρ)

end Cert.KernelIdeal.KValue

end
-- ==== Proof.lean ====
/-
  The proof of `Cert.Claim`: the low-rank LSTM cell's kernel against its reference.

  The cell (Proof/CellSpec.lean) has, for gate g at batch row b and hidden column j, one pre-activation
      ((x U_x) V_xᵀ)[b,n] + ((h U_h) V_hᵀ)[b,n] + b_x[n] + b_h[n] + h[b,j] (dia_h[j] - corr_h[g,j])
        + x[b,j] (dia_x[j] - corr_x[g,j])  (the last term for j < 512),      n = g * 1024 + j,
  and two arrangements of it. The kernel computes the fused one (`preK`: one product over the 256 stacked ranks, the
  coefficients dia - corr folded beforehand, the two biases summed beforehand), so it ends at `hK`, `cK` of its
  arguments (Proof/KernelSide.lean). The reference computes the separate one (`preR`: two products, the corrections
  subtracted and the diagonal terms added one by one, the x terms padded with zeros beyond column 512), so it ends at
  `hR`, `cR` of its arguments (Proof/RefSide.lean). The precondition makes every entry of every argument a real number
  (Proof/FiniteArgs.lean), and over the reals the two arrangements are equal by distributing and reordering finitely
  many sums and products (Proof/CellAlgebra.lean); the gating σ, tanh is the same function of the pre-activations on
  both sides. The three frame claims are the generated runs; the idealization rewrote no operation.
-/
import proofs.«167605_j26680336843034_2_alg».proof.Defs
import proofs.«167605_j26680336843034_2_alg».proof.Proof.Gen.Kernel
import proofs.«167605_j26680336843034_2_alg».proof.Proof.Gen.Kernel.Skeleton
import proofs.«167605_j26680336843034_2_alg».proof.Proof.Gen.Kernel.Launch
import proofs.«167605_j26680336843034_2_alg».proof.Proof.Gen.Kernel.Points
import proofs.«167605_j26680336843034_2_alg».proof.Proof.Gen.Kernel.Frame
import proofs.«167605_j26680336843034_2_alg».proof.Proof.Gen.KernelIdeal
import proofs.«167605_j26680336843034_2_alg».proof.Proof.Gen.KernelIdeal.Skeleton
import proofs.«167605_j26680336843034_2_alg».proof.Proof.Gen.KernelIdeal.Launch
import proofs.«167605_j26680336843034_2_alg».proof.Proof.Gen.KernelIdeal.Points
import proofs.«167605_j26680336843034_2_alg».proof.Proof.Gen.KernelIdeal.Frame
import proofs.«167605_j26680336843034_2_alg».proof.Proof.Gen.KernelIdeal.Value
import proofs.«167605_j26680336843034_2_alg».proof.Proof.Gen.ReferenceIdeal
import proofs.«167605_j26680336843034_2_alg».proof.Proof.Gen.ReferenceIdeal.Run
import proofs.«167605_j26680336843034_2_alg».proof.Proof.Gen.ReferenceIdeal.Read
import proofs.«167605_j26680336843034_2_alg».proof.Proof.Gen.Pre_finite_inputs
import proofs.«167605_j26680336843034_2_alg».proof.Proof.CellSpec
import proofs.«167605_j26680336843034_2_alg».proof.Proof.CellAlgebra
import proofs.«167605_j26680336843034_2_alg».proof.Proof.FiniteArgs
import proofs.«167605_j26680336843034_2_alg».proof.Proof.RefSide
import proofs.«167605_j26680336843034_2_alg».proof.Proof.HostGlue
import proofs.«167605_j26680336843034_2_alg».proof.Proof.KernelSide
import Idealize.ShloMosaic.Adequacy
import Idealize.ShloMosaic.Init

noncomputable section

namespace Cert.Proof

open Idealize.ShloMosaic Idealize.ShloMosaic.TcCoe Idealize.SL.Sem

/-! ## The reference's results are the separate arrangement of the kernel's arguments -/

/-- From a memory that agrees with the kernel's on the eleven arguments, the reference run's two result terms are
    `hR` and `cR` of the kernel's arguments. -/
theorem ref_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
      ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
      ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)
      ∧ m' ((c : Thread Cert.ReferenceIdeal.nD Cert.ReferenceIdeal.τ).loc Cert.ReferenceIdeal.main_arg8) = m ((c : Thread Cert.KernelIdeal.nD Cert.KernelIdeal.τ).loc Cert.KernelIdeal.main_arg8)
      ∧ m' ((c : Thread Cert.ReferenceIdeal.nD Cert.ReferenceIdeal.τ).loc Cert.ReferenceIdeal.main_arg9) = m ((c : Thread Cert.KernelIdeal.nD Cert.KernelIdeal.τ).loc Cert.KernelIdeal.main_arg9)
      ∧ m' ((c : Thread Cert.ReferenceIdeal.nD Cert.ReferenceIdeal.τ).loc Cert.ReferenceIdeal.main_arg10) = m ((c : Thread Cert.KernelIdeal.nD Cert.KernelIdeal.τ).loc Cert.KernelIdeal.main_arg10)) :
    Cert.ReferenceIdeal.Value.res_main_v83 (F := Ideal) m' c = Cert.LowRankCell.hR (Cert.KernelIdeal.Glue.argsOf m c)
    ∧ Cert.ReferenceIdeal.Value.res_main_v81 (F := Ideal) m' c = Cert.LowRankCell.cR (Cert.KernelIdeal.Glue.argsOf m c) := by
  obtain ⟨h0, h1, h2, h3, h4, h5, h6, h7, h8, h9, h10⟩ := h
  constructor
  · rw [Cert.ReferenceIdeal.Read.val_main_v83_eq, h0, h1, h2, h3, h4, h5, h6, h7, h8, h9, h10]
    funext i
    exact Cert.ReferenceIdeal.RefValue.ref_h (Cert.KernelIdeal.Glue.argsOf m c) i
  · rw [Cert.ReferenceIdeal.Read.val_main_v81_eq, h0, h1, h2, h3, h4, h5, h6, h7, h8, h9, h10]
    funext i
    exact Cert.ReferenceIdeal.RefValue.ref_c (Cert.KernelIdeal.Glue.argsOf m c) i

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On finite arguments the kernel ends at the fused arrangement `hK`, `cK` of its arguments and the reference, from
    arguments that agree, at the separate arrangement `hR`, `cR` of the same arrays; with every entry real the two
    arrangements are one pair of arrays. -/
theorem algebraic : Cert.algebraic_KernelIdeal_ReferenceIdeal := by
  intro m ρ m' ρ' hpre hagree
  have hA : ∀ c : Dev Cert.KernelIdeal.nD, (Cert.KernelIdeal.Glue.argsOf m c).Real := fun c =>
    Cert.LowRankCell.real_of_finite_inputs (Cert.KernelIdeal.Glue.argsOf m c) (hpre c)
  refine ⟨fun c => Cert.LowRankCell.hK (Cert.KernelIdeal.Glue.argsOf m c), fun c => Cert.LowRankCell.cK (Cert.KernelIdeal.Glue.argsOf m c),
    Cert.KernelIdeal.KValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · exact (ref_results m m' c (hagree c)).1.trans (Cert.LowRankCell.hK_eq_hR _ (hA c)).symm
  · exact (ref_results m m' c (hagree c)).2.trans (Cert.LowRankCell.cK_eq_cR _ (hA c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
